-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S100000x128 : Shape := ⟨2, ![100000, 128]⟩
abbrev S237x128 : Shape := ⟨2, ![237, 128]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S237x128 : S_.BroadcastsInDim S237x128 (![] : Fin 0 → Fin S237x128.rank)
  reducesTo_S237x128_S_d0_1 : S237x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S384x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg8 main_arg9 main_arg10 main_v33

def fn {F : FTy → Type} [FloatOps F] (main_arg0 : IVec S500000x3 32) (main_arg1 : FVec F S100000x128 .f32) (main_arg2 : FVec F S237x128 .f32) (main_arg3 : FVec F S128x128 .f32) (main_arg4 : FVec F S128 .f32) (main_arg5 : FVec F S128x128 .f32) (main_arg6 : FVec F S128 .f32) (main_arg7 : FVec F S384x128 .f32) (main_arg8 : FVec F S128 .f32) (main_arg9 : FVec F S128x1 .f32) (main_arg10 : FVec F S1 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S237x128 .f32 := Host.absf main_arg2
  let main_cst_0 : FVec F S_ .f32 := constant S_ .f32 0x7F800000#32
  let main_v5 : FVec F S237x128 .f32 := broadcastInDim S237x128 ![] bcast_S_S237x128 main_cst_0
  let main_v6 : IVec S237x128 1 := cmpf .olt main_v4 main_v5
  let main_c_1 : IVec S_ 1 := constantI S_ 1 1#1
  let main_v7 : IVec S_ 1 := (fun x v => Host.reduce IntOp.andi x v reducesTo_S237x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S500000x3 : Shape := ⟨2, ![500000, 3]⟩
abbrev S100000x128 : Shape := ⟨2, ![100000, 128]⟩
abbrev S237x128 : Shape := ⟨2, ![237, 128]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S500000x1 : Shape := ⟨2, ![500000, 1]⟩
abbrev S500000 : Shape := ⟨1, ![500000]⟩
abbrev S1x128 : Shape := ⟨2, ![1, 128]⟩
abbrev S10000x128 : Shape := ⟨2, ![10000, 128]⟩
abbrev S_ : Shape := ⟨0, ![]⟩
abbrev S500000x128 : Shape := ⟨2, ![500000, 128]⟩
abbrev S1x1 : Shape := ⟨2, ![1, 1]⟩
abbrev S5000x128 : Shape := ⟨2, ![5000, 128]⟩
abbrev S5000x1 : Shape := ⟨2, ![5000, 1]⟩
abbrev S5000 : Shape := ⟨1, ![5000]⟩
abbrev S100000 : Shape := ⟨1, ![100000]⟩

abbrev nBuf : Space → Nat
  | .hbm => 79
  | .vmem => 22
  | .smem => 0
  | _ => 0

abbrev bufTy : (tb : Table) → Fin (tcTables nBuf tb) → BufTy
  | .hbm, ⟨0, _⟩ => ⟨S500000x3, .i32⟩
  | .hbm, ⟨1, _⟩ => ⟨S100000x128, .f32⟩
  | .hbm, ⟨2, _⟩ => ⟨S237x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S500000x1, .i32⟩
  | .hbm, ⟨12, _⟩ => ⟨S500000, .i32⟩
  | .hbm, ⟨13, _⟩ => ⟨S500000x1, .i32⟩
  | .hbm, ⟨14, _⟩ => ⟨S500000, .i32⟩
  | .hbm, ⟨15, _⟩ => ⟨S500000x1, .i32⟩
  | .hbm, ⟨16, _⟩ => ⟨S500000, .i32⟩
  | .hbm, ⟨17, _⟩ => ⟨S1x128, .f32⟩
  | .hbm, ⟨18, _⟩ => ⟨S100000x128, .f32⟩
  | .hbm, ⟨19, _⟩ => ⟨S237x128, .f32⟩
  | .hbm, ⟨20, _⟩ => ⟨S1x128, .f32⟩
  | .hbm, ⟨21, _⟩ => ⟨S237x128, .f32⟩
  | .hbm, ⟨22, _⟩ => ⟨S237x128, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x128, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x128, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S1x128, .f32⟩
  | .hbm, ⟨54, _⟩ => ⟨S1x1, .f32⟩
  | .hbm, ⟨55, _⟩ => ⟨S500000x128, .f32⟩
  | .hbm, ⟨56, _⟩ => ⟨S500000x1, .f32⟩
  | .hbm, ⟨57, _⟩ => ⟨S500000, .f32⟩
  | .hbm, ⟨58, _⟩ => ⟨S_, .f32⟩
  | .hbm, ⟨59, _⟩ => ⟨S100000, .f32⟩
  | .hbm, ⟨60, _⟩ => ⟨S500000x1, .i32⟩
  | .hbm, ⟨61, _⟩ => ⟨S100000, .f32⟩
  | .hbm, ⟨62, _⟩ => ⟨S_, .i32⟩
  | .hbm, ⟨63, _⟩ => ⟨S500000, .i32⟩
  | .hbm, ⟨64, _⟩ => ⟨S500000, .i1⟩
  | .hbm, ⟨65, _⟩ => ⟨S_, .i32⟩
  | .hbm, ⟨66, _⟩ => ⟨S500000, .i32⟩
  | .hbm, ⟨67, _⟩ => ⟨S500000, .i32⟩
  | .hbm, ⟨68, _⟩ => ⟨S500000, .i32⟩
  | .hbm, ⟨69, _⟩ => ⟨S500000x1, .i32⟩
  | .hbm, ⟨70, _⟩ => ⟨S500000, .f32⟩
  | .hbm, ⟨71, _⟩ => ⟨S500000, .f32⟩
  | .hbm, ⟨72, _⟩ => ⟨S500000x1, .f32⟩
  | .hbm, ⟨73, _⟩ => ⟨S500000x128, .f32⟩
  | .hbm, ⟨74, _⟩ => ⟨S500000x128, .f32⟩
  | .hbm, ⟨75, _⟩ => ⟨S_, .f32⟩
  | .hbm, ⟨76, _⟩ => ⟨S100000x128, .f32⟩
  | .hbm, ⟨77, _⟩ => ⟨S500000x1, .i32⟩
  | .hbm, ⟨78, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | _, _ => ⟨S500000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v39 : Ref sig .tc := ⟨.hbm, 57, rfl⟩
abbrev main_cst : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc1_sem10_0 : DmaSem sig := 20
abbrev cc1_sem10_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S128_S1x128_1 : S128.BroadcastsInDim S1x128 (![1] : Fin 1 → Fin S1x128.rank)
  bcast_S1x128_S237x128_0_1 : S1x128.BroadcastsInDim S237x128 (![0, 1] : Fin 2 → Fin S237x128.rank)
  bcast_S_S500000 : S_.BroadcastsInDim S500000 (![] : Fin 0 → Fin S500000.rank)
  bcast_S500000_S500000x1_0 : S500000.BroadcastsInDim S500000x1 (![0] : Fin 1 → Fin S500000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S5000x1_S5000 : S5000x1.ShapeCasts S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  bcast_S_S100000 : S_.BroadcastsInDim S100000 (![] : Fin 0 → Fin S100000.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  dot_S10000x128_S128x128_S10000x128_1_0_0_1_n_n_wf : DotDims.WF S10000x128 S128x128 S10000x128 [1] [0] [0] [1] [] []
  dot_S237x128_S128x128_S237x128_1_0_0_1_n_n_wf : DotDims.WF S237x128 S128x128 S237x128 [1] [0] [0] [1] [] []
  gather_S100000x128_S500000x1_S500000x128_1_0_n_n_0_1_1128_wf : GatherDims.WF S100000x128 S500000x1 S500000x128 [1] [0] [] [0] [] 1 ![1, 128]
  gather_S237x128_S500000x1_S500000x128_1_0_n_n_0_1_1128_wf : GatherDims.WF S237x128 S500000x1 S500000x128 [1] [0] [] [0] [] 1 ![1, 128]
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S500000x128.size a
  hwx1_2 : ∀ i : grid1.Coords, EltTy.bits .f32 = 32 ∨ (Rect.block (s := S500000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S500000x128.size a
  hwx1_9 : ∀ i : grid1.Coords, EltTy.bits .f32 = 32 ∨ (Rect.block (s := S500000x128) S5000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S500000x1.size a
  hwx1_10 : ∀ i : grid1.Coords, EltTy.bits .f32 = 32 ∨ (Rect.block (s := S500000x1) S5000x1.size (cc1_transform_10 i) (hinb1_10 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S237x128_S128x128_S237x128_1_0_0_1_n_n : DotDims S237x128 S128x128 S237x128 where
  lhsContracting := [1]
  rhsContracting := [0]
  lhsNonContracting := [0]
  rhsNonContracting := [1]
  lhsBatch := []
  rhsBatch := []
  wf := dot_S237x128_S128x128_S237x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S237x128_S500000x1_S500000x128_1_0_n_n_0_1_1128 : GatherDims S237x128 S500000x1 S500000x128 where
  offsetDims := [1]
  collapsedSliceDims := [0]
  operandBatchingDims := []
  startIndicesBatchingDims := []
  startIndexMap := [0]
  indexVectorDim := 1
  sliceSizes := ![1, 128]
  wf := gather_S237x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38_0) S5000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v38_1) S5000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S500000x3 : Shape := ⟨2, ![500000, 3]⟩
abbrev S100000x128 : Shape := ⟨2, ![100000, 128]⟩
abbrev S237x128 : Shape := ⟨2, ![237, 128]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S500000x1 : Shape := ⟨2, ![500000, 1]⟩
abbrev S500000 : Shape := ⟨1, ![500000]⟩
abbrev S_ : Shape := ⟨0, ![]⟩
abbrev S500000x128 : Shape := ⟨2, ![500000, 128]⟩
abbrev S1x128 : Shape := ⟨2, ![1, 128]⟩
abbrev S500000x384 : Shape := ⟨2, ![500000, 384]⟩
abbrev S1x1 : Shape := ⟨2, ![1, 1]⟩
abbrev S100000 : Shape := ⟨1, ![100000]⟩

abbrev nBuf : Space → Nat
  | .hbm => 96
  | .vmem => 0
  | .smem => 0
  | _ => 0

abbrev bufTy : (tb : Table) → Fin (tcTables nBuf tb) → BufTy
  | .hbm, ⟨0, _⟩ => ⟨S500000x3, .i32⟩
  | .hbm, ⟨1, _⟩ => ⟨S100000x128, .f32⟩
  | .hbm, ⟨2, _⟩ => ⟨S237x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S500000x1, .i32⟩
  | .hbm, ⟨12, _⟩ => ⟨S500000, .i32⟩
  | .hbm, ⟨13, _⟩ => ⟨S500000x1, .i32⟩
  | .hbm, ⟨14, _⟩ => ⟨S500000, .i32⟩
  | .hbm, ⟨15, _⟩ => ⟨S500000x1, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .f32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000x128, .f32⟩
  | .hbm, ⟨44, _⟩ => ⟨S500000x128, .f32⟩
  | .hbm, ⟨45, _⟩ => ⟨S1x128, .f32⟩
  | .hbm, ⟨46, _⟩ => ⟨S500000x128, .f32⟩
  | .hbm, ⟨47, _⟩ => ⟨S500000x128, .f32⟩
  | .hbm, ⟨48, _⟩ => ⟨S500000x128, .f32⟩
  | .hbm, ⟨49, _⟩ => ⟨S1x128, .f32⟩
  | .hbm, ⟨50, _⟩ => ⟨S500000x128, .f32⟩
  | .hbm, ⟨51, _⟩ => ⟨S500000x128, .f32⟩
  | .hbm, ⟨52, _⟩ => ⟨S500000x128, .f32⟩
  | .hbm, ⟨53, _⟩ => ⟨S1x128, .f32⟩
  | .hbm, ⟨54, _⟩ => ⟨S500000x128, .f32⟩
  | .hbm, ⟨55, _⟩ => ⟨S500000x128, .f32⟩
  | .hbm, ⟨56, _⟩ => ⟨S500000x384, .f32⟩
  | .hbm, ⟨57, _⟩ => ⟨S500000x128, .f32⟩
  | .hbm, ⟨58, _⟩ => ⟨S1x128, .f32⟩
  | .hbm, ⟨59, _⟩ => ⟨S500000x128, .f32⟩
  | .hbm, ⟨60, _⟩ => ⟨S500000x128, .f32⟩
  | .hbm, ⟨61, _⟩ => ⟨S500000x1, .f32⟩
  | .hbm, ⟨62, _⟩ => ⟨S1x1, .f32⟩
  | .hbm, ⟨63, _⟩ => ⟨S500000x1, .f32⟩
  | .hbm, ⟨64, _⟩ => ⟨S500000x1, .f32⟩
  | .hbm, ⟨65, _⟩ => ⟨S500000, .f32⟩
  | .hbm, ⟨66, _⟩ => ⟨S_, .f32⟩
  | .hbm, ⟨67, _⟩ => ⟨S_, .f32⟩
  | .hbm, ⟨68, _⟩ => ⟨S500000, .f32⟩
  | .hbm, ⟨69, _⟩ => ⟨S500000, .i1⟩
  | .hbm, ⟨70, _⟩ => ⟨S_, .f32⟩
  | .hbm, ⟨71, _⟩ => ⟨S500000, .f32⟩
  | .hbm, ⟨72, _⟩ => ⟨S500000, .f32⟩
  | .hbm, ⟨73, _⟩ => ⟨S500000, .f32⟩
  | .hbm, ⟨74, _⟩ => ⟨S500000, .f32⟩
  | .hbm, ⟨75, _⟩ => ⟨S_, .f32⟩
  | .hbm, ⟨76, _⟩ => ⟨S100000, .f32⟩
  | .hbm, ⟨77, _⟩ => ⟨S500000x1, .i32⟩
  | .hbm, ⟨78, _⟩ => ⟨S100000, .f32⟩
  | .hbm, ⟨79, _⟩ => ⟨S_, .i32⟩
  | .hbm, ⟨80, _⟩ => ⟨S500000, .i32⟩
  | .hbm, ⟨81, _⟩ => ⟨S500000, .i1⟩
  | .hbm, ⟨82, _⟩ => ⟨S_, .i32⟩
  | .hbm, ⟨83, _⟩ => ⟨S500000, .i32⟩
  | .hbm, ⟨84, _⟩ => ⟨S500000, .i32⟩
  | .hbm, ⟨85, _⟩ => ⟨S500000, .i32⟩
  | .hbm, ⟨86, _⟩ => ⟨S500000x1, .i32⟩
  | .hbm, ⟨87, _⟩ => ⟨S500000, .f32⟩
  | .hbm, ⟨88, _⟩ => ⟨S500000, .f32⟩
  | .hbm, ⟨89, _⟩ => ⟨S500000x1, .f32⟩
  | .hbm, ⟨90, _⟩ => ⟨S500000x128, .f32⟩
  | .hbm, ⟨91, _⟩ => ⟨S500000x128, .f32⟩
  | .hbm, ⟨92, _⟩ => ⟨S_, .f32⟩
  | .hbm, ⟨93, _⟩ => ⟨S100000x128, .f32⟩
  | .hbm, ⟨94, _⟩ => ⟨S500000x1, .i32⟩
  | .hbm, ⟨95, _⟩ => ⟨S100000x128, .f32⟩
  | _, _ => ⟨S500000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_v49 : Ref sig .tc := ⟨.hbm, 73, rfl⟩
abbrev main_v50 : Ref sig .tc := ⟨.hbm, 74, rfl⟩
abbrev main_cst_5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_6 : Ref sig .tc := ⟨.hbm, 79, rfl⟩
abbrev main_v54 : Ref sig .tc := ⟨.hbm, 80, rfl⟩
abbrev main_v55 : Ref sig .tc := ⟨.hbm, 81, rfl⟩
abbrev main_c_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_8 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]

class Facts₀ : Prop where
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  bcast_S_S500000 : S_.BroadcastsInDim S500000 (![] : Fin 0 → Fin S500000.rank)
  bcast_S500000_S500000x1_0 : S500000.BroadcastsInDim S500000x1 (![0] : Fin 1 → Fin S500000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  concatenates_S500000x128_S500000x128_S500000x128_S500000x384_d1 : Shape.Concatenates [S500000x128, S500000x128, S500000x128] S500000x384 1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S100000 : S_.BroadcastsInDim S100000 (![] : Fin 0 → Fin S100000.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  gather_S100000x128_S500000x1_S500000x128_1_0_n_n_0_1_1128_wf : GatherDims.WF S100000x128 S500000x1 S500000x128 [1] [0] [] [0] [] 1 ![1, 128]
  gather_S237x128_S500000x1_S500000x128_1_0_n_n_0_1_1128_wf : GatherDims.WF S237x128 S500000x1 S500000x128 [1] [0] [] [0] [] 1 ![1, 128]
  dot_S500000x128_S128x128_S500000x128_1_0_0_1_n_n_wf : DotDims.WF S500000x128 S128x128 S500000x128 [1] [0] [0] [1] [] []
  dot_S500000x384_S384x128_S500000x128_1_0_0_1_n_n_wf : DotDims.WF S500000x384 S384x128 S500000x128 [1] [0] [0] [1] [] []
  dot_S500000x128_S128x1_S500000x1_1_0_0_1_n_n_wf : DotDims.WF S500000x128 S128x1 S500000x1 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  scatter_S100000x128_S500000x1_S500000x128_1_0_0_1_wf : ScatterDims.WF S100000x128 S500000x1 S500000x128 [1] [0] [0] 1

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S237x128_S500000x1_S500000x128_1_0_n_n_0_1_1128 : GatherDims S237x128 S500000x1 S500000x128 where
  offsetDims := [1]
  collapsedSliceDims := [0]
  operandBatchingDims := []
  startIndicesBatchingDims := []
  startIndexMap := [0]
  indexVectorDim := 1
  sliceSizes := ![1, 128]
  wf := gather_S237x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.KRun.lean ====
/-
  The idealized kernel program's run with its final memory named.

  @main is a stretch of host operations, the projection kernel's region, a second stretch, the edge kernel's region and
  a last stretch. The buffer contents at the boundaries are the fold `W0 … W5` of the generated frame module: a
  stretch applies its operations, a region leaves in each of its arrays what its write-backs leave and every other
  buffer as it found it. The library's launch theorem for a list of segments is applied to the generated segments with
  the thread state "every buffer that is no kernel's scratch at the boundary's contents, the generator register at
  some state, nothing owed"; the last thread state is read against the final memory for EVERY such buffer, so every
  weakly fair execution terminates with each of them at `W5`.
-/
import proofs.«156960_j59090160058522_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's thread state at launch: the buffers at the launch contents, the register and the empty debt beside. -/
abbrev Tfirst (c : Dev nD) : sProp 𝕄 :=
  iprop(StableHlo.held (c : Thread nD τ) (Pipeline.ucRefs τ sig) (W0 m ρ c) ∗ R c)

/-- Nothing, once per core, is nothing. -/
theorem emp_each : (BI.emp : sProp 𝕄) ⊢ bigSep Finset.univ (fun _ : Dev nD => (BI.emp : sProp 𝕄)) := by
  rw [BI.bigSep_emp_const]

set_option backward.isDefEq.respectTransparency.types false in
/-- Every weakly fair execution of @main terminates, nothing faulting, and every final state has each buffer that is
    no kernel's scratch at the last boundary's contents `W5`. -/
theorem run_W5 : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    -- @main is the segments' run
    (hmain := fun c Q => by rw [main_run m ρ c])
    -- the two pipelines are entered once each
    (hnd := by
      simp only [segs, Pipeline.Seg.pipes_host, Pipeline.Seg.pipes_region, Pipeline.Seg.pipes_nil]
      decide)
    -- nothing is owed at launch and no level is assigned
    (O₀ := 0) (hL := fun _ _ => rfl) (G := fun _ => iprop(emp))
    -- the launch element is the pipelines' own, with no further ghost state per core
    (u₀ := initOf (Pipeline.cells cfgs cellOf_inj) (Pipeline.launchToks cfgs cellOf_inj))
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (emp_each (F := F))
        iempintro)
    (T₀ := Tfirst m ρ) (Tₙ := Tₙ m ρ)
    -- each segment starts from what the one before it leaves: the boundary contents are named so that these are
    -- identities, and the last stretch's post regrouped is the last thread state beside the empty debt
    (hch := ⟨fun _ => .rfl, fun _ => .rfl, fun _ => .rfl, fun _ => .rfl, fun _ => .rfl, fun c => by
      dsimp only [Pipeline.Seg.post, hseg, Pipeline.HostSeg.ofOps]
      iintro ⟨Hbufs, Hreg, Hdebt⟩
      isplitr [Hdebt]
      · isplitl [Hbufs]
        · iexact Hbufs
        · iexact Hreg
      · iexact Hdebt⟩)
    -- a core's first thread state from what the launch deals it
    (hinit := by
      refine Pipeline.initEach L lv fun c => ?_
      rw [Pipeline.unscopedBufs_held c (W0 m ρ c)]
      iintro ⟨⟨Hbufs, -, Hdebt, -, Hreg, -⟩, -⟩
      imodintro
      isplitl [Hbufs]
      · iexact Hbufs
      isplitl [Hreg]
      · iexists _
        iexact Hreg
      · iexists ∅
        iexact Hdebt)
    -- the last thread state read against a final state: every held buffer is in memory at its contents
    (QY := fun c s => ∀ b ∈ Pipeline.ucRefs τ sig, s.mem (((c : Thread nD τ)).1, b) = W5 m ρ c b)
    (hfin := fun c s' => by
      iintro ⟨⟨Hbufs, -⟩, Hst⟩
      unfold StableHlo.held
      imodintro
      iapply (pointsTo_read_all (Pipeline.ucRefs τ sig) (fun b => (((c : Thread nD τ)).1, b)) (W5 m ρ c) s')
      isplitl [Hbufs]
      · iexact Hbufs
      · iexact Hst)
    (hQ := fun s h => h)

end Cert.KernelIdeal.KRun

end
-- ==== Proof.RefRun.lean ====
/-
  The reference program's @main as a list of host operations, and its run.

  The reference computes, edge by edge, the projected source, destination and relation rows, their concatenation's
  product with the 384 × 128 weight plus a bias (the per-edge feature), the attention score's leaky rectifier and
  exponential, and then the normalisation and aggregation over the edges of each source node. Its operations are listed
  here in four consecutive stretches — the per-edge feature (`opsA`), the attention weight (`opsB`, the outlined
  leaky rectifier written out at its call), and the normalisation and aggregation (`opsC0`, `opsC1`) — so that
  each stretch can be read back on its own. Every weakly fair execution of @main terminates with each buffer at
  the fold of the operations over the launch contents.
-/
import proofs.«156960_j59090160058522_1_alg».proof.Proof.Gen.ReferenceIdeal
import Idealize.ShloMosaic.Lib.StableHlo.Run
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The per-edge feature: index normalisation, the three row gathers, the three projections, their concatenation and
    the product with the 384 × 128 weight plus its bias. -/
abbrev opsA : List (HloOp τ sig (Elt F)) :=
  [ StableHlo.unary main_arg0 main_v0 ((extractStridedSlice S500000x1 ![0, 0] · slices_S500000x3_S500000x1_0_0) : (⟨S500000x3, .i32⟩ : BufTy).Contents (Elt F) → (⟨S500000x1, .i32⟩ : BufTy).Contents (Elt F)),
    StableHlo.reshape main_v0 main_v1 rfl shapeCasts_S500000x1_S500000,
    StableHlo.unary main_arg0 main_v2 ((extractStridedSlice S500000x1 ![0, 1] · slices_S500000x3_S500000x1_0_1) : (⟨S500000x3, .i32⟩ : BufTy).Contents (Elt F) → (⟨S500000x1, .i32⟩ : BufTy).Contents (Elt F)),
    StableHlo.reshape main_v2 main_v3 rfl shapeCasts_S500000x1_S500000,
    StableHlo.unary main_arg0 main_v4 ((extractStridedSlice S500000x1 ![0, 2] · slices_S500000x3_S500000x1_0_2) : (⟨S500000x3, .i32⟩ : BufTy).Contents (Elt F) → (⟨S500000x1, .i32⟩ : BufTy).Contents (Elt F)),
    StableHlo.reshape main_v4 main_v5 rfl shapeCasts_S500000x1_S500000,
    StableHlo.nullary main_c (constantI S_ 32 0#32),
    StableHlo.unary main_c main_v6 (broadcastInDim S500000 ![] bcast_S_S500000 : (⟨S_, .i32⟩ : BufTy).Contents (Elt F) → (⟨S500000, .i32⟩ : BufTy).Contents (Elt F)),
    StableHlo.binary main_v1 main_v6 main_v7 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 100000#32),
    StableHlo.unary main_c_0 main_v8 (broadcastInDim S500000 ![] bcast_S_S500000 : (⟨S_, .i32⟩ : BufTy).Contents (Elt F) → (⟨S500000, .i32⟩ : BufTy).Contents (Elt F)),
    StableHlo.binary main_v1 main_v8 main_v9 (addi : (⟨S500000, .i32⟩ : BufTy).Contents (Elt F) → (⟨S500000, .i32⟩ : BufTy).Contents (Elt F) → (⟨S500000, .i32⟩ : BufTy).Contents (Elt F)),
    StableHlo.ternary main_v7 main_v9 main_v1 main_v10 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v10 main_v11 (broadcastInDim S500000x1 ![0] bcast_S500000_S500000x1_0 : (⟨S500000, .i32⟩ : BufTy).Contents (Elt F) → (⟨S500000x1, .i32⟩ : BufTy).Contents (Elt F)),
    StableHlo.binary main_arg1 main_v11 main_v12 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.nullary main_c_1 (constantI S_ 32 0#32),
    StableHlo.unary main_c_1 main_v13 (broadcastInDim S500000 ![] bcast_S_S500000 : (⟨S_, .i32⟩ : BufTy).Contents (Elt F) → (⟨S500000, .i32⟩ : BufTy).Contents (Elt F)),
    StableHlo.binary main_v3 main_v13 main_v14 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 100000#32),
    StableHlo.unary main_c_2 main_v15 (broadcastInDim S500000 ![] bcast_S_S500000 : (⟨S_, .i32⟩ : BufTy).Contents (Elt F) → (⟨S500000, .i32⟩ : BufTy).Contents (Elt F)),
    StableHlo.binary main_v3 main_v15 main_v16 (addi : (⟨S500000, .i32⟩ : BufTy).Contents (Elt F) → (⟨S500000, .i32⟩ : BufTy).Contents (Elt F) → (⟨S500000, .i32⟩ : BufTy).Contents (Elt F)),
    StableHlo.ternary main_v14 main_v16 main_v3 main_v17 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v17 main_v18 (broadcastInDim S500000x1 ![0] bcast_S500000_S500000x1_0 : (⟨S500000, .i32⟩ : BufTy).Contents (Elt F) → (⟨S500000x1, .i32⟩ : BufTy).Contents (Elt F)),
    StableHlo.binary main_arg1 main_v18 main_v19 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.nullary main_c_3 (constantI S_ 32 0#32),
    StableHlo.unary main_c_3 main_v20 (broadcastInDim S500000 ![] bcast_S_S500000 : (⟨S_, .i32⟩ : BufTy).Contents (Elt F) → (⟨S500000, .i32⟩ : BufTy).Contents (Elt F)),
    StableHlo.binary main_v5 main_v20 main_v21 (cmpi .slt : (⟨S500000, .i32⟩ : BufTy).Contents (Elt F) → (⟨S500000, .i32⟩ : BufTy).Contents (Elt F) → (⟨S500000, .i1⟩ : BufTy).Contents (Elt F)),
    StableHlo.nullary main_c_4 (constantI S_ 32 237#32),
    StableHlo.unary main_c_4 main_v22 (broadcastInDim S500000 ![] bcast_S_S500000 : (⟨S_, .i32⟩ : BufTy).Contents (Elt F) → (⟨S500000, .i32⟩ : BufTy).Contents (Elt F)),
    StableHlo.binary main_v5 main_v22 main_v23 (addi : (⟨S500000, .i32⟩ : BufTy).Contents (Elt F) → (⟨S500000, .i32⟩ : BufTy).Contents (Elt F) → (⟨S500000, .i32⟩ : BufTy).Contents (Elt F)),
    StableHlo.ternary main_v21 main_v23 main_v5 main_v24 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v24 main_v25 (broadcastInDim S500000x1 ![0] bcast_S500000_S500000x1_0 : (⟨S500000, .i32⟩ : BufTy).Contents (Elt F) → (⟨S500000x1, .i32⟩ : BufTy).Contents (Elt F)),
    StableHlo.binary main_arg2 main_v25 main_v26 ((fun x i => Host.gather gather_S237x128_S500000x1_S500000x128_1_0_n_n_0_1_1128 x i) : (⟨S237x128, .f32⟩ : BufTy).Contents (Elt F) → (⟨S500000x1, .i32⟩ : BufTy).Contents (Elt F) → (⟨S500000x128, .f32⟩ : BufTy).Contents (Elt F)),
    StableHlo.binary main_v12 main_arg3 main_v27 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S500000x128 ![0, 1] bcast_S1x128_S500000x128_0_1 : (⟨S1x128, .f32⟩ : BufTy).Contents (Elt F) → (⟨S500000x128, .f32⟩ : BufTy).Contents (Elt F)),
    StableHlo.binary main_v27 main_v29 main_v30 (addf : (⟨S500000x128, .f32⟩ : BufTy).Contents (Elt F) → (⟨S500000x128, .f32⟩ : BufTy).Contents (Elt F) → (⟨S500000x128, .f32⟩ : BufTy).Contents (Elt F)),
    StableHlo.binary main_v19 main_arg3 main_v31 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S500000x128 ![0, 1] bcast_S1x128_S500000x128_0_1 : (⟨S1x128, .f32⟩ : BufTy).Contents (Elt F) → (⟨S500000x128, .f32⟩ : BufTy).Contents (Elt F)),
    StableHlo.binary main_v31 main_v33 main_v34 (addf : (⟨S500000x128, .f32⟩ : BufTy).Contents (Elt F) → (⟨S500000x128, .f32⟩ : BufTy).Contents (Elt F) → (⟨S500000x128, .f32⟩ : BufTy).Contents (Elt F)),
    StableHlo.binary main_v26 main_arg5 main_v35 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    StableHlo.unary main_arg6 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S500000x128 ![0, 1] bcast_S1x128_S500000x128_0_1 : (⟨S1x128, .f32⟩ : BufTy).Contents (Elt F) → (⟨S500000x128, .f32⟩ : BufTy).Contents (Elt F)),
    StableHlo.binary main_v35 main_v37 main_v38 (addf : (⟨S500000x128, .f32⟩ : BufTy).Contents (Elt F) → (⟨S500000x128, .f32⟩ : BufTy).Contents (Elt F) → (⟨S500000x128, .f32⟩ : BufTy).Contents (Elt F)),
    StableHlo.nary ![main_v30, main_v34, main_v38] main_v39 (fun u => concatenate S500000x384 1 [⟨S500000x128, u 0⟩, ⟨S500000x128, u 1⟩, ⟨S500000x128, u 2⟩] concatenates_S500000x128_S500000x128_S500000x128_S500000x384_d1),
    StableHlo.binary main_v39 main_arg7 main_v40 ((fun l r => Host.dotGeneral dot_S500000x384_S384x128_S500000x128_1_0_0_1_n_n none l r) : (⟨S500000x384, .f32⟩ : BufTy).Contents (Elt F) → (⟨S384x128, .f32⟩ : BufTy).Contents (Elt F) → (⟨S500000x128, .f32⟩ : BufTy).Contents (Elt F)),
    StableHlo.unary main_arg8 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S500000x128 ![0, 1] bcast_S1x128_S500000x128_0_1 : (⟨S1x128, .f32⟩ : BufTy).Contents (Elt F) → (⟨S500000x128, .f32⟩ : BufTy).Contents (Elt F)),
    StableHlo.binary main_v40 main_v42 main_v43 (addf : (⟨S500000x128, .f32⟩ : BufTy).Contents (Elt F) → (⟨S500000x128, .f32⟩ : BufTy).Contents (Elt F) → (⟨S500000x128, .f32⟩ : BufTy).Contents (Elt F)) ]

/-- The attention weight of an edge: the score, its leaky rectifier (the outlined function's seven operations at the
    call's buffers) and the exponential. -/
abbrev opsB : List (HloOp τ sig (Elt F)) :=
  [ StableHlo.binary main_v43 main_arg9 main_v44 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    StableHlo.unary main_arg10 main_v45 (broadcastInDim S1x1 ![1] bcast_S1_S1x1_1 : (⟨S1, .f32⟩ : BufTy).Contents (Elt F) → (⟨S1x1, .f32⟩ : BufTy).Contents (Elt F)),
    StableHlo.unary main_v45 main_v46 (broadcastInDim S500000x1 ![0, 1] bcast_S1x1_S500000x1_0_1 : (⟨S1x1, .f32⟩ : BufTy).Contents (Elt F) → (⟨S500000x1, .f32⟩ : BufTy).Contents (Elt F)),
    StableHlo.binary main_v44 main_v46 main_v47 (addf : (⟨S500000x1, .f32⟩ : BufTy).Contents (Elt F) → (⟨S500000x1, .f32⟩ : BufTy).Contents (Elt F) → (⟨S500000x1, .f32⟩ : BufTy).Contents (Elt F)),
    StableHlo.reshape main_v47 main_v48 rfl shapeCasts_S500000x1_S500000,
    StableHlo.nullary main_cst (constant S_ .f32 0x3C23D70A#32),
    TRef.nullary main_call0.cst (constant S_ .f32 0x00000000#32),
    TRef.unary main_call0.cst main_call0.v0 (broadcastInDim S500000 ![] bcast_S_S500000),
    TRef.binary (.of main_v48) main_call0.v0 main_call0.v1 (cmpf .oge),
    TRef.unary (.of main_cst) main_call0.v2 id,
    TRef.unary main_call0.v2 main_call0.v3 (broadcastInDim S500000 ![] bcast_S_S500000),
    TRef.binary main_call0.v3 (.of main_v48) main_call0.v4 mulf,
    TRef.ternary main_call0.v1 (.of main_v48) main_call0.v4 main_call0.call0.v0 select,
    StableHlo.unary main_v49 main_v50 (Host.exp : (⟨S500000, .f32⟩ : BufTy).Contents (Elt F) → (⟨S500000, .f32⟩ : BufTy).Contents (Elt F)) ]

/-- The zero array the per-node sums start from (the last two statements of @main's first window). -/
abbrev opsC0 : List (HloOp τ sig (Elt F)) :=
  [ StableHlo.nullary main_cst_5 (constant S_ .f32 0x00000000#32),
    StableHlo.unary main_cst_5 main_v51 (broadcastInDim S100000 ![] bcast_S_S100000 : (⟨S_, .f32⟩ : BufTy).Contents (Elt F) → (⟨S100000, .f32⟩ : BufTy).Contents (Elt F)) ]

/-- The per-node sum of the weights, the normalised weights and the weighted aggregation (@main's second window). -/
abbrev opsC1 : List (HloOp τ sig (Elt F)) :=
  [ StableHlo.unary main_v1 main_v52 (broadcastInDim S500000x1 ![0] bcast_S500000_S500000x1_0 : (⟨S500000, .i32⟩ : BufTy).Contents (Elt F) → (⟨S500000x1, .i32⟩ : BufTy).Contents (Elt F)),
    StableHlo.ternary main_v51 main_v52 main_v50 main_v53 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_c_6 (constantI S_ 32 0#32),
    StableHlo.unary main_c_6 main_v54 (broadcastInDim S500000 ![] bcast_S_S500000 : (⟨S_, .i32⟩ : BufTy).Contents (Elt F) → (⟨S500000, .i32⟩ : BufTy).Contents (Elt F)),
    StableHlo.binary main_v1 main_v54 main_v55 (cmpi .slt : (⟨S500000, .i32⟩ : BufTy).Contents (Elt F) → (⟨S500000, .i32⟩ : BufTy).Contents (Elt F) → (⟨S500000, .i1⟩ : BufTy).Contents (Elt F)),
    StableHlo.nullary main_c_7 (constantI S_ 32 100000#32),
    StableHlo.unary main_c_7 main_v56 (broadcastInDim S500000 ![] bcast_S_S500000 : (⟨S_, .i32⟩ : BufTy).Contents (Elt F) → (⟨S500000, .i32⟩ : BufTy).Contents (Elt F)),
    StableHlo.binary main_v1 main_v56 main_v57 (addi : (⟨S500000, .i32⟩ : BufTy).Contents (Elt F) → (⟨S500000, .i32⟩ : BufTy).Contents (Elt F) → (⟨S500000, .i32⟩ : BufTy).Contents (Elt F)),
    StableHlo.ternary main_v55 main_v57 main_v1 main_v58 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v58 main_v59 (broadcastInDim S500000x1 ![0] bcast_S500000_S500000x1_0 : (⟨S500000, .i32⟩ : BufTy).Contents (Elt F) → (⟨S500000x1, .i32⟩ : BufTy).Contents (Elt F)),
    StableHlo.binary main_v53 main_v59 main_v60 ((fun x i => Host.gather gather_S100000_S500000x1_S500000_n_0_n_n_0_1_1 x i) : (⟨S100000, .f32⟩ : BufTy).Contents (Elt F) → (⟨S500000x1, .i32⟩ : BufTy).Contents (Elt F) → (⟨S500000, .f32⟩ : BufTy).Contents (Elt F)),
    StableHlo.binary main_v50 main_v60 main_v61 (Host.divf : (⟨S500000, .f32⟩ : BufTy).Contents (Elt F) → (⟨S500000, .f32⟩ : BufTy).Contents (Elt F) → (⟨S500000, .f32⟩ : BufTy).Contents (Elt F)),
    StableHlo.unary main_v61 main_v62 (broadcastInDim S500000x1 ![0] bcast_S500000_S500000x1_0 : (⟨S500000, .f32⟩ : BufTy).Contents (Elt F) → (⟨S500000x1, .f32⟩ : BufTy).Contents (Elt F)),
    StableHlo.unary main_v62 main_v63 (broadcastInDim S500000x128 ![0, 1] bcast_S500000x1_S500000x128_0_1 : (⟨S500000x1, .f32⟩ : BufTy).Contents (Elt F) → (⟨S500000x128, .f32⟩ : BufTy).Contents (Elt F)),
    StableHlo.binary main_v63 main_v43 main_v64 (mulf : (⟨S500000x128, .f32⟩ : BufTy).Contents (Elt F) → (⟨S500000x128, .f32⟩ : BufTy).Contents (Elt F) → (⟨S500000x128, .f32⟩ : BufTy).Contents (Elt F)),
    StableHlo.nullary main_cst_8 (constant S_ .f32 0x00000000#32),
    StableHlo.unary main_cst_8 main_v65 (broadcastInDim S100000x128 ![] bcast_S_S100000x128 : (⟨S_, .f32⟩ : BufTy).Contents (Elt F) → (⟨S100000x128, .f32⟩ : BufTy).Contents (Elt F)),
    StableHlo.unary main_v1 main_v66 (broadcastInDim S500000x1 ![0] bcast_S500000_S500000x1_0 : (⟨S500000, .i32⟩ : BufTy).Contents (Elt F) → (⟨S500000x1, .i32⟩ : BufTy).Contents (Elt F)),
    StableHlo.ternary main_v65 main_v66 main_v64 main_v67 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)) ]

/-- @main's first window. -/
abbrev ops_part0 : List (HloOp τ sig (Elt F)) := opsA ++ (opsB ++ opsC0)

/-- @main's operations, in order. -/
abbrev ops : List (HloOp τ sig (Elt F)) := ops_part0 ++ opsC1

set_option maxRecDepth 8192 in
theorem main_part0_eq (c : Dev nD) : main_part0 (F := F) c = seq ops_part0 := rfl

set_option maxRecDepth 8192 in
theorem main_part1_eq (c : Dev nD) : main_part1 (F := F) c = seq opsC1 := rfl

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., nary_bufs_sub .., binary_bufs_sub .., unary_bufs_sub .., unary_bufs_sub .., binary_bufs_sub ..⟩
set_option maxRecDepth 8192 in
theorem opsB_sub : (opsB : List (HloOp τ sig (Elt F))).Forall fun op => op.bufs ⊆ tcRefs τ sig :=
  ⟨binary_bufs_sub .., unary_bufs_sub .., unary_bufs_sub .., binary_bufs_sub .., reshape_bufs_sub .., nullary_bufs_sub .., nullary_bufs_sub .., unary_bufs_sub .., binary_bufs_sub .., unary_bufs_sub .., unary_bufs_sub .., binary_bufs_sub .., ternary_bufs_sub .., unary_bufs_sub ..⟩
theorem opsC0_sub : (opsC0 : List (HloOp τ sig (Elt F))).Forall fun op => op.bufs ⊆ tcRefs τ sig :=
  ⟨nullary_bufs_sub .., unary_bufs_sub ..⟩
set_option maxRecDepth 8192 in
theorem opsC1_sub : (opsC1 : List (HloOp τ sig (Elt F))).Forall fun op => op.bufs ⊆ tcRefs τ sig :=
  ⟨unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩

theorem ops_sub : (ops : List (HloOp τ sig (Elt F))).Forall fun op => op.bufs ⊆ tcRefs τ sig :=
  List.forall_iff_forall_mem.mpr fun op h => by
    simp only [ops, ops_part0, List.mem_append] at h
    rcases h with (h | h | h) | h
    exacts [List.forall_iff_forall_mem.mp opsA_sub op h, List.forall_iff_forall_mem.mp opsB_sub op h,
      List.forall_iff_forall_mem.mp opsC0_sub op h, List.forall_iff_forall_mem.mp opsC1_sub op h]

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over all of @main is the fold over its four stretches, one after the other. -/
theorem after_ops (V : Valuation τ sig (Elt F)) :
    after ops V = after opsC1 (after opsC0 (after opsB (after opsA V))) := by
  simp only [ops, ops_part0, after_append]

end Cert.ReferenceIdeal.HostRun

end
-- ==== Proof.RefKeep.lean ====
/-
  The reference program writes none of its eleven argument arrays: after all of @main's operations each still holds its
  launch contents.
-/
import proofs.«156960_j59090160058522_1_alg».proof.Proof.RefRun

set_option maxRecDepth 16384

noncomputable section

namespace Cert.ReferenceIdeal.HostKeep

open Cert.ReferenceIdeal Cert.ReferenceIdeal.Gen Cert.ReferenceIdeal.HostRun
open Idealize.ShloMosaic Idealize.ShloMosaic.TcCoe Idealize.SL.Sem Idealize.ShloMosaic.StableHlo

variable {F : FTy → Type} [FloatOps F]

set_option maxHeartbeats 4000000 in
theorem keep_arg0 (V : Valuation τ sig (Elt F)) : after ops V (Proc.devRef .tc main_arg0) = V (Proc.devRef .tc main_arg0) := by
  rw [after_ops]
  simp only [opsA, opsB, opsC0, opsC1]
  after_results_simp
set_option maxHeartbeats 4000000 in
theorem keep_arg1 (V : Valuation τ sig (Elt F)) : after ops V (Proc.devRef .tc main_arg1) = V (Proc.devRef .tc main_arg1) := by
  rw [after_ops]
  simp only [opsA, opsB, opsC0, opsC1]
  after_results_simp
set_option maxHeartbeats 4000000 in
theorem keep_arg2 (V : Valuation τ sig (Elt F)) : after ops V (Proc.devRef .tc main_arg2) = V (Proc.devRef .tc main_arg2) := by
  rw [after_ops]
  simp only [opsA, opsB, opsC0, opsC1]
  after_results_simp
set_option maxHeartbeats 4000000 in
theorem keep_arg3 (V : Valuation τ sig (Elt F)) : after ops V (Proc.devRef .tc main_arg3) = V (Proc.devRef .tc main_arg3) := by
  rw [after_ops]
  simp only [opsA, opsB, opsC0, opsC1]
  after_results_simp
set_option maxHeartbeats 4000000 in
theorem keep_arg4 (V : Valuation τ sig (Elt F)) : after ops V (Proc.devRef .tc main_arg4) = V (Proc.devRef .tc main_arg4) := by
  rw [after_ops]
  simp only [opsA, opsB, opsC0, opsC1]
  after_results_simp
set_option maxHeartbeats 4000000 in
theorem keep_arg5 (V : Valuation τ sig (Elt F)) : after ops V (Proc.devRef .tc main_arg5) = V (Proc.devRef .tc main_arg5) := by
  rw [after_ops]
  simp only [opsA, opsB, opsC0, opsC1]
  after_results_simp
set_option maxHeartbeats 4000000 in
theorem keep_arg6 (V : Valuation τ sig (Elt F)) : after ops V (Proc.devRef .tc main_arg6) = V (Proc.devRef .tc main_arg6) := by
  rw [after_ops]
  simp only [opsA, opsB, opsC0, opsC1]
  after_results_simp
set_option maxHeartbeats 4000000 in
theorem keep_arg7 (V : Valuation τ sig (Elt F)) : after ops V (Proc.devRef .tc main_arg7) = V (Proc.devRef .tc main_arg7) := by
  rw [after_ops]
  simp only [opsA, opsB, opsC0, opsC1]
  after_results_simp
set_option maxHeartbeats 4000000 in
theorem keep_arg8 (V : Valuation τ sig (Elt F)) : after ops V (Proc.devRef .tc main_arg8) = V (Proc.devRef .tc main_arg8) := by
  rw [after_ops]
  simp only [opsA, opsB, opsC0, opsC1]
  after_results_simp
set_option maxHeartbeats 4000000 in
theorem keep_arg9 (V : Valuation τ sig (Elt F)) : after ops V (Proc.devRef .tc main_arg9) = V (Proc.devRef .tc main_arg9) := by
  rw [after_ops]
  simp only [opsA, opsB, opsC0, opsC1]
  after_results_simp
set_option maxHeartbeats 4000000 in
theorem keep_arg10 (V : Valuation τ sig (Elt F)) : after ops V (Proc.devRef .tc main_arg10) = V (Proc.devRef .tc main_arg10) := by
  rw [after_ops]
  simp only [opsA, opsB, opsC0, opsC1]
  after_results_simp

/-- Every weakly fair execution of @main terminates with the argument arrays as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c main_arg0).trans (keep_arg0 _), (h c main_arg1).trans (keep_arg1 _), (h c main_arg2).trans (keep_arg2 _),
     (h c main_arg3).trans (keep_arg3 _), (h c main_arg4).trans (keep_arg4 _), (h c main_arg5).trans (keep_arg5 _),
     (h c main_arg6).trans (keep_arg6 _), (h c main_arg7).trans (keep_arg7 _), (h c main_arg8).trans (keep_arg8 _),
     (h c main_arg9).trans (keep_arg9 _), (h c main_arg10).trans (keep_arg10 _)⟩)
    (run_main m ρ)

end Cert.ReferenceIdeal.HostKeep

end
-- ==== Proof.Tail.lean ====
/-
  The two host chains both programs share, each as ONE function.

  A row lookup `x[idx]` first moves a negative index up by the table's length and lays the indices out as a column
  of start words (`startWords`). After the per-edge feature `cF` and the per-edge weight `b` are known, both programs
  finish in the same way (`aggregate`): the weights of the edges leaving each source node are summed, every weight is
  divided by its source node's sum, and the features, scaled by these normalised weights, are summed per source node.
  Nothing here is opened by the certificate: the two programs are shown to feed it equal arguments.
-/
import proofs.«156960_j59090160058522_1_alg».proof.Proof.Gen.KernelIdeal

noncomputable section

namespace Cert.KernelIdeal.Tail

open Cert.KernelIdeal Cert.KernelIdeal.Gen Idealize.ShloMosaic

variable {F : FTy → Type} [FloatOps F]

/-- The start words of a row lookup into a table of `n` rows: a negative index is moved up by `n`, and the indices
    are laid out as a column. -/
def startWords (n : BitVec 32) (raw : (⟨S500000, .i32⟩ : BufTy).Contents (Elt F)) :
    (⟨S500000x1, .i32⟩ : BufTy).Contents (Elt F) :=
  broadcastInDim S500000x1 ![0] bcast_S500000_S500000x1_0
    (select (cmpi CmpIPredicate.slt raw (broadcastInDim S500000 ![] bcast_S_S500000 (constantI S_ 32 0#32)))
      (addi raw (broadcastInDim S500000 ![] bcast_S_S500000 (constantI S_ 32 n))) raw)

/-- From the source indices, the per-edge weights `b` and the per-edge features `cF`: the per-node sums of the
    features weighted by `b` normalised over the edges of one source node. -/
def aggregate (src : (⟨S500000, .i32⟩ : BufTy).Contents (Elt F)) (b : (⟨S500000, .f32⟩ : BufTy).Contents (Elt F))
    (cF : (⟨S500000x128, .f32⟩ : BufTy).Contents (Elt F)) : (⟨S100000x128, .f32⟩ : BufTy).Contents (Elt F) :=
  Host.scatterAdd scatter_S100000x128_S500000x1_S500000x128_1_0_0_1
    (broadcastInDim S100000x128 ![] bcast_S_S100000x128 (constant S_ FTy.f32 0x00000000#32))
    (broadcastInDim S500000x1 ![0] bcast_S500000_S500000x1_0 src)
    (mulf
      (broadcastInDim S500000x128 ![0, 1] bcast_S500000x1_S500000x128_0_1
        (broadcastInDim S500000x1 ![0] bcast_S500000_S500000x1_0
          (Host.divf b
            (Host.gather gather_S100000_S500000x1_S500000_n_0_n_n_0_1_1
              (Host.scatterAdd scatter_S100000_S500000x1_S500000_n_0_0_1
                (broadcastInDim S100000 ![] bcast_S_S100000 (constant S_ FTy.f32 0x00000000#32))
                (broadcastInDim S500000x1 ![0] bcast_S500000_S500000x1_0 src) b)
              (startWords 100000#32 src)))))
      cF)

end Cert.KernelIdeal.Tail

end
-- ==== Proof.KRead.lean ====
/-
  The idealized kernel program's buffers at each boundary of @main, read back.

  The first stretch cuts the edge list into its three index columns and lays the projection's bias out as a row; the
  projection kernel's region then leaves `x · W + b` in its output array and every other buffer as it was. The second
  stretch projects the relation table on the host, turns each index column into start words, gathers the projected rows
  the edges name, cuts the 384 × 128 weight into its three 128-row parts and lays the two remaining biases out; the edge
  kernel's region leaves the feature array and the weight column. The last stretch is the shared normalisation and
  aggregation. Each fact below says what one buffer holds at one boundary, in terms of the boundary before.
-/
import proofs.«156960_j59090160058522_1_alg».proof.Proof.Gen.KernelIdeal.Frame
import proofs.«156960_j59090160058522_1_alg».proof.Proof.Tail
import Idealize.ShloMosaic.Lib.StableHlo.Run

set_option maxRecDepth 16384

noncomputable section

namespace Cert.KernelIdeal.KRead

open Cert.KernelIdeal Cert.KernelIdeal.Gen Cert.KernelIdeal.Tail
open Idealize.ShloMosaic Idealize.ShloMosaic.TcCoe Idealize.SL.Sem Idealize.ShloMosaic.StableHlo

variable {F : FTy → Type} [FloatOps F]

/-- Column 0 of the edge list, as a vector: the source indices. -/
def col0 (T : (⟨S500000x3, .i32⟩ : BufTy).Contents (Elt F)) : (⟨S500000, .i32⟩ : BufTy).Contents (Elt F) :=
  shapeCast S500000 (extractStridedSlice S500000x1 ![0, 0] T slices_S500000x3_S500000x1_0_0) shapeCasts_S500000x1_S500000
/-- Column 1: the destination indices. -/
def col1 (T : (⟨S500000x3, .i32⟩ : BufTy).Contents (Elt F)) : (⟨S500000, .i32⟩ : BufTy).Contents (Elt F) :=
  shapeCast S500000 (extractStridedSlice S500000x1 ![0, 1] T slices_S500000x3_S500000x1_0_1) shapeCasts_S500000x1_S500000
/-- Column 2: the relation indices. -/
def col2 (T : (⟨S500000x3, .i32⟩ : BufTy).Contents (Elt F)) : (⟨S500000, .i32⟩ : BufTy).Contents (Elt F) :=
  shapeCast S500000 (extractStridedSlice S500000x1 ![0, 2] T slices_S500000x3_S500000x1_0_2) shapeCasts_S500000x1_S500000

/-- The relation table projected on the host: `x · W + b`. -/
def relProj (X : (⟨S237x128, .f32⟩ : BufTy).Contents (Elt F)) (W : (⟨S128x128, .f32⟩ : BufTy).Contents (Elt F))
    (b : (⟨S128, .f32⟩ : BufTy).Contents (Elt F)) : (⟨S237x128, .f32⟩ : BufTy).Contents (Elt F) :=
  addf (Host.dotGeneral dot_S237x128_S128x128_S237x128_1_0_0_1_n_n none X W)
    (broadcastInDim S237x128 ![0, 1] bcast_S1x128_S237x128_0_1 (broadcastInDim S1x128 ![1] bcast_S128_S1x128_1 b))

variable (m : (ℓ : Loc nD τ sig) → Buf (Elt F) ℓ) (ρ : Dev nD → PrngReg) (c : Dev nD)

/-! ## After the first stretch -/

theorem W1_main_v1 : W1 m ρ c (Proc.devRef .tc main_v1) = col0 (m ((c : Thread nD τ).loc main_arg0)) := by
  show StableHlo.after hostOps0 (W0 m ρ c) _ = _
  after_results_simp
  rfl
theorem W1_main_v3 : W1 m ρ c (Proc.devRef .tc main_v3) = col1 (m ((c : Thread nD τ).loc main_arg0)) := by
  show StableHlo.after hostOps0 (W0 m ρ c) _ = _
  after_results_simp
  rfl
theorem W1_main_v5 : W1 m ρ c (Proc.devRef .tc main_v5) = col2 (m ((c : Thread nD τ).loc main_arg0)) := by
  show StableHlo.after hostOps0 (W0 m ρ c) _ = _
  after_results_simp
  rfl
theorem W1_main_v6 : W1 m ρ c (Proc.devRef .tc main_v6) = shapeCast S1x128 (m ((c : Thread nD τ).loc main_arg4)) shapeCasts_S128_S1x128 := by
  show StableHlo.after hostOps0 (W0 m ρ c) _ = _
  after_results_simp
  rfl
theorem W1_main_arg1 : W1 m ρ c (Proc.devRef .tc main_arg1) = m ((c : Thread nD τ).loc main_arg1) := by
  show StableHlo.after hostOps0 (W0 m ρ c) _ = _
  after_results_simp
  try rfl
theorem W1_main_arg2 : W1 m ρ c (Proc.devRef .tc main_arg2) = m ((c : Thread nD τ).loc main_arg2) := by
  show StableHlo.after hostOps0 (W0 m ρ c) _ = _
  after_results_simp
  try rfl
theorem W1_main_arg3 : W1 m ρ c (Proc.devRef .tc main_arg3) = m ((c : Thread nD τ).loc main_arg3) := by
  show StableHlo.after hostOps0 (W0 m ρ c) _ = _
  after_results_simp
  try rfl
theorem W1_main_arg5 : W1 m ρ c (Proc.devRef .tc main_arg5) = m ((c : Thread nD τ).loc main_arg5) := by
  show StableHlo.after hostOps0 (W0 m ρ c) _ = _
  after_results_simp
  try rfl
theorem W1_main_arg6 : W1 m ρ c (Proc.devRef .tc main_arg6) = m ((c : Thread nD τ).loc main_arg6) := by
  show StableHlo.after hostOps0 (W0 m ρ c) _ = _
  after_results_simp
  try rfl
theorem W1_main_arg7 : W1 m ρ c (Proc.devRef .tc main_arg7) = m ((c : Thread nD τ).loc main_arg7) := by
  show StableHlo.after hostOps0 (W0 m ρ c) _ = _
  after_results_simp
  try rfl
theorem W1_main_arg8 : W1 m ρ c (Proc.devRef .tc main_arg8) = m ((c : Thread nD τ).loc main_arg8) := by
  show StableHlo.after hostOps0 (W0 m ρ c) _ = _
  after_results_simp
  try rfl
theorem W1_main_arg9 : W1 m ρ c (Proc.devRef .tc main_arg9) = m ((c : Thread nD τ).loc main_arg9) := by
  show StableHlo.after hostOps0 (W0 m ρ c) _ = _
  after_results_simp
  try rfl
theorem W1_main_arg10 : W1 m ρ c (Proc.devRef .tc main_arg10) = m ((c : Thread nD τ).loc main_arg10) := by
  show StableHlo.after hostOps0 (W0 m ρ c) _ = _
  after_results_simp
  try rfl

/-! ## After the projection kernel's region -/

theorem W2_main_v7 : W2 m ρ c (Proc.devRef .tc main_v7) = (dat0 (V1 m ρ) c).arrAt 3 cfg0.N := W2_arr m ρ c 3
theorem W2_main_v1 : W2 m ρ c (Proc.devRef .tc main_v1) = W1 m ρ c (Proc.devRef .tc main_v1) := W2_of_ne m ρ c main_v1 (by decide)
theorem W2_main_v3 : W2 m ρ c (Proc.devRef .tc main_v3) = W1 m ρ c (Proc.devRef .tc main_v3) := W2_of_ne m ρ c main_v3 (by decide)
theorem W2_main_v5 : W2 m ρ c (Proc.devRef .tc main_v5) = W1 m ρ c (Proc.devRef .tc main_v5) := W2_of_ne m ρ c main_v5 (by decide)
theorem W2_main_arg2 : W2 m ρ c (Proc.devRef .tc main_arg2) = W1 m ρ c (Proc.devRef .tc main_arg2) := W2_of_ne m ρ c main_arg2 (by decide)
theorem W2_main_arg5 : W2 m ρ c (Proc.devRef .tc main_arg5) = W1 m ρ c (Proc.devRef .tc main_arg5) := W2_of_ne m ρ c main_arg5 (by decide)
theorem W2_main_arg6 : W2 m ρ c (Proc.devRef .tc main_arg6) = W1 m ρ c (Proc.devRef .tc main_arg6) := W2_of_ne m ρ c main_arg6 (by decide)
theorem W2_main_arg7 : W2 m ρ c (Proc.devRef .tc main_arg7) = W1 m ρ c (Proc.devRef .tc main_arg7) := W2_of_ne m ρ c main_arg7 (by decide)
theorem W2_main_arg8 : W2 m ρ c (Proc.devRef .tc main_arg8) = W1 m ρ c (Proc.devRef .tc main_arg8) := W2_of_ne m ρ c main_arg8 (by decide)
theorem W2_main_arg9 : W2 m ρ c (Proc.devRef .tc main_arg9) = W1 m ρ c (Proc.devRef .tc main_arg9) := W2_of_ne m ρ c main_arg9 (by decide)
theorem W2_main_arg10 : W2 m ρ c (Proc.devRef .tc main_arg10) = W1 m ρ c (Proc.devRef .tc main_arg10) := W2_of_ne m ρ c main_arg10 (by decide)

/-! ## After the second stretch -/

set_option maxHeartbeats 2000000 in
theorem W3_main_v18 : W3 m ρ c (Proc.devRef .tc main_v18)
    = Host.gather gather_S100000x128_S500000x1_S500000x128_1_0_n_n_0_1_1128 (W2 m ρ c (Proc.devRef .tc main_v7))
        (startWords 100000#32 (W2 m ρ c (Proc.devRef .tc main_v1))) := by
  show StableHlo.after hostOps1 (W2 m ρ c) _ = _
  after_results_simp
  rfl
set_option maxHeartbeats 2000000 in
theorem W3_main_v25 : W3 m ρ c (Proc.devRef .tc main_v25)
    = Host.gather gather_S100000x128_S500000x1_S500000x128_1_0_n_n_0_1_1128 (W2 m ρ c (Proc.devRef .tc main_v7))
        (startWords 100000#32 (W2 m ρ c (Proc.devRef .tc main_v3))) := by
  show StableHlo.after hostOps1 (W2 m ρ c) _ = _
  after_results_simp
  rfl
set_option maxHeartbeats 2000000 in
theorem W3_main_v32 : W3 m ρ c (Proc.devRef .tc main_v32)
    = Host.gather gather_S237x128_S500000x1_S500000x128_1_0_n_n_0_1_1128
        (relProj (W2 m ρ c (Proc.devRef .tc main_arg2)) (W2 m ρ c (Proc.devRef .tc main_arg5)) (W2 m ρ c (Proc.devRef .tc main_arg6)))
        (startWords 237#32 (W2 m ρ c (Proc.devRef .tc main_v5))) := by
  show StableHlo.after hostOps1 (W2 m ρ c) _ = _
  after_results_simp
  rfl
set_option maxHeartbeats 2000000 in
theorem W3_main_v33 : W3 m ρ c (Proc.devRef .tc main_v33)
    = extractStridedSlice S128x128 ![0, 0] (W2 m ρ c (Proc.devRef .tc main_arg7)) slices_S384x128_S128x128_0_0 := by
  show StableHlo.after hostOps1 (W2 m ρ c) _ = _
  after_results_simp
  try rfl
set_option maxHeartbeats 2000000 in
theorem W3_main_v34 : W3 m ρ c (Proc.devRef .tc main_v34)
    = extractStridedSlice S128x128 ![128, 0] (W2 m ρ c (Proc.devRef .tc main_arg7)) slices_S384x128_S128x128_128_0 := by
  show StableHlo.after hostOps1 (W2 m ρ c) _ = _
  after_results_simp
  try rfl
set_option maxHeartbeats 2000000 in
theorem W3_main_v35 : W3 m ρ c (Proc.devRef .tc main_v35)
    = extractStridedSlice S128x128 ![256, 0] (W2 m ρ c (Proc.devRef .tc main_arg7)) slices_S384x128_S128x128_256_0 := by
  show StableHlo.after hostOps1 (W2 m ρ c) _ = _
  after_results_simp
  try rfl
set_option maxHeartbeats 2000000 in
theorem W3_main_v36 : W3 m ρ c (Proc.devRef .tc main_v36) = shapeCast S1x128 (W2 m ρ c (Proc.devRef .tc main_arg8)) shapeCasts_S128_S1x128 := by
  show StableHlo.after hostOps1 (W2 m ρ c) _ = _
  after_results_simp
  rfl
set_option maxHeartbeats 2000000 in
theorem W3_main_v37 : W3 m ρ c (Proc.devRef .tc main_v37) = shapeCast S1x1 (W2 m ρ c (Proc.devRef .tc main_arg10)) shapeCasts_S1_S1x1 := by
  show StableHlo.after hostOps1 (W2 m ρ c) _ = _
  after_results_simp
  rfl
set_option maxHeartbeats 2000000 in
theorem W3_main_arg9 : W3 m ρ c (Proc.devRef .tc main_arg9) = W2 m ρ c (Proc.devRef .tc main_arg9) := by
  show StableHlo.after hostOps1 (W2 m ρ c) _ = _
  after_results_simp
set_option maxHeartbeats 2000000 in
theorem W3_main_v1 : W3 m ρ c (Proc.devRef .tc main_v1) = W2 m ρ c (Proc.devRef .tc main_v1) := by
  show StableHlo.after hostOps1 (W2 m ρ c) _ = _
  after_results_simp

/-! ## After the edge kernel's region -/

theorem W4_main_v38_0 : W4 m ρ c (Proc.devRef .tc main_v38_0) = (dat1 (V3 m ρ) c).arrAt 9 cfg1.N := W4_arr m ρ c 9
theorem W4_main_v38_1 : W4 m ρ c (Proc.devRef .tc main_v38_1) = (dat1 (V3 m ρ) c).arrAt 10 cfg1.N := W4_arr m ρ c 10
theorem W4_main_v1 : W4 m ρ c (Proc.devRef .tc main_v1) = W3 m ρ c (Proc.devRef .tc main_v1) := W4_of_ne m ρ c main_v1 (by decide)

/-! ## After the last stretch -/

set_option maxHeartbeats 2000000 in
/-- The result: the shared normalisation and aggregation of the source indices, the weight column read as a vector and
    the feature array. -/
theorem W5_result : W5 m ρ c (Proc.devRef .tc main_v56)
    = aggregate (W4 m ρ c (Proc.devRef .tc main_v1))
        (shapeCast S500000 (W4 m ρ c (Proc.devRef .tc main_v38_1)) shapeCasts_S500000x1_S500000)
        (W4 m ρ c (Proc.devRef .tc main_v38_0)) := by
  show StableHlo.after hostOps2 (W4 m ρ c) _ = _
  after_results_simp
  rfl

end Cert.KernelIdeal.KRead

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.Region0.lean ====
/-
  What the projection kernel leaves in its output array.

  The kernel computes `x · W + b` ten thousand rows at a time: at grid point `t` it reads rows
  `10000·t … 10000·t + 9999` of the entity table, the whole 128 × 128 weight and the bias laid out as one row, and
  writes the same rows of the output. Entry `(p, q)` of the block written at `t` is the sum over `k` of
  `x (10000·t + p, k) · W (k, q)` plus `b (0, q)`, which depends on row `10000·t + p` of the table only; so the blocks
  are the restrictions of ONE function of the whole arrays (`proj`), and since the ten blocks tile the output, the
  output array ends holding it.
-/
import proofs.«156960_j59090160058522_1_alg».proof.Proof.Gen.KernelIdeal.Frame
import proofs.«156960_j59090160058522_1_alg».proof.Proof.LibDotSum
import Idealize.ShloMosaic.PureOps.Ideal.Laws
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- `x · W + b` at entry `(n, k)`, the bias given as one row. -/
def proj (X : FVec Ideal S100000x128 .f32) (W : FVec Ideal S128x128 .f32) (b : FVec Ideal S1x128 .f32) :
    FVec Ideal S100000x128 .f32 :=
  fun i => ∑ k : Fin 128, X (ix2 (i 0) k) * W (ix2 k (i 1)) + b (ix2 (0 : Fin 1) (i 1))

/-- The body's value at `(p, q)`: the product's sum over `k` plus the bias row's entry `q`. -/
theorem pay_apply (x0 : Vec Ideal S10000x128 .f32) (x1 : Vec Ideal S128x128 .f32) (x2 : Vec Ideal S1x128 .f32)
    (p : Fin 10000) (q : Fin 128) :
    k0_pay1 x0 x1 x2 (ix2 p q) = ∑ k : Fin 128, x0 (ix2 p k) * x1 (ix2 k q) + x2 (ix2 (0 : Fin 1) q) := by
  unfold k0_pay1
  show matmul dot_S10000x128_S128x128_S10000x128_1_0_0_1_n_n none x0 x1 (constant (F := Ideal) S10000x128 .f32 0x00000000#32) (ix2 p q)
      + broadcastTo S10000x128 (shapeCast S1x128 x2 shapeCasts_S1x128_S1x128) broadcasts_S1x128_S10000x128 (ix2 p q) = _
  rw [shapeCast_self]
  refine congrArg₂ (· + ·) ?_ ?_
  · exact (Ideal.matmul_constant_zero_apply _ none x0 x1 (ix2 p q)).trans
      (Cert.LibDotSum.sum_dot dot_S10000x128_S128x128_S10000x128_1_0_0_1_n_n rfl rfl (fun _ _ => rfl) (fun _ _ => rfl)
        (fun _ _ => rfl) (fun _ _ => rfl) x0 x1 p q)
  · exact broadcastTo_apply x2 _ (ix2 p q) (ix2 (0 : Fin 1) q) (fun a => by
      match a with
      | ⟨0, _⟩ => rfl
      | ⟨1, _⟩ => rfl)

theorem hz : (![0, 0] : Fin 2 → Nat) = fun _ => 0 := funext fun a => by fin_cases a <;> rfl

/-- The printed index maps over the ten grid points: the table's and the output's blocks move with the point, the
    weight's and the bias's stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of `proj` of the arrays the region finds. -/
theorem flushed_eq (c : Dev nD) (t : Fin cfg0.N) :
    (dat0 V c).flushed 3 t
      = ((cfg0.win 3).blk t).view.read (Elt Ideal) (proj (V c main_arg1) (V c main_arg3) (V c main_v6)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S1x128) hz]
  obtain ⟨e00, e01, e10, e11, e20, e21, e30, e31⟩ := idx_facts t
  have ht : t.val < 10 := lt_of_lt_of_eq t.isLt N_0
  funext j
  obtain ⟨p, q, rfl⟩ : ∃ (p : Fin 10000) (q : Fin 128), j = ix2 p q := ⟨j 0, j 1, eq_ix2 j⟩
  refine (pay_apply (iblk0 V c 0 t) (iblk0 V c 1 t) (iblk0 V c 2 t) p q).trans ?_
  have hrow : t.val * 10000 + p.val < 100000 := by have := p.isLt; omega
  have h3 : ((cfg0.win 3).blk t).view.emb (ix2 p q) = ix2 (⟨t.val * 10000 + p.val, hrow⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 128 + 1 * q.val = q.val; omega
  have h0 : ∀ k : Fin 128, iblk0 V c 0 t (ix2 p k) = V c main_arg1 (ix2 (⟨t.val * 10000 + p.val, hrow⟩ : Fin 100000) k) := fun k => by
    show V c main_arg1 (((cfg0.win 0).blk t).view.emb (ix2 p k)) = _
    refine congrArg (V c main_arg1) ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ∀ k : Fin 128, iblk0 V c 1 t (ix2 k q) = V c main_arg3 (ix2 k q) := fun k => by
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : iblk0 V c 2 t (ix2 (0 : Fin 1) q) = V c main_v6 (ix2 (0 : Fin 1) q) := by
    show V c main_v6 (((cfg0.win 2).blk t).view.emb (ix2 (0 : Fin 1) q)) = _
    refine congrArg (V c main_v6) ?_
    funext a; apply Fin.ext
    match a with
    | ⟨0, _⟩ => show win0_2.index t (0 : Fin 2) * 1 + 1 * 0 = 0; omega
    | ⟨1, _⟩ => show win0_2.index t (1 : Fin 2) * 128 + 1 * q.val = q.val; omega
  show _ = proj (V c main_arg1) (V c main_arg3) (V c main_v6) (((cfg0.win 3).blk t).view.emb (ix2 p q))
  rw [h3, h2]
  simp only [h0, h1]
  rfl

/-- An index of the output is in point `t`'s block iff each coordinate is in the block's range on its axis. -/
theorem mem_blk (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v7).slice (win0_3.rect t)).set ↔ _
  rw [View.set_slice_whole, Rect.mem_set_unit]
  exact Iff.rfl

/-- The ten blocks tile the output: row `r` is in the block of point `r / 10000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 10000 < cfg0.N := lt_of_lt_of_eq (by omega : (i 0).val / 10000 < 10) N_0.symm
  refine ⟨⟨(i 0).val / 10000, hN⟩, flush0_3 _, ?_⟩
  obtain ⟨-, -, -, -, -, -, e30, e31⟩ := idx_facts ⟨(i 0).val / 10000, hN⟩
  rw [mem_blk]
  intro a
  match a with
  | ⟨0, _⟩ =>
    show win0_3.index _ (0 : Fin 2) * 10000 ≤ (i 0).val ∧ (i 0).val < win0_3.index _ (0 : Fin 2) * 10000 + 10000
    rw [e30]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e31]; omega

/-- THE OUTPUT ARRAY after the region: `proj` of the arrays the region finds. -/
theorem final (c : Dev nD) :
    (dat0 V c).arrAt 3 cfg0.N = proj (V c main_arg1) (V c main_arg3) (V c main_v6) :=
  (dat0 V c).arrAt_eq_of_cover 3 _ (fun t _ => flushed_eq V c t) cover

end Cert.KernelIdeal.Region0

end
-- ==== Proof.LibSumGroups.lean ====
/-
  A finite sum over consecutive groups of indices.

  In any additive commutative monoid, a sum over the `a + b` indices `0, …, a + b − 1` is the sum over the first `a` of
  them plus the sum over the last `b` (`sum_fin_add`): the index set `Fin c` with `c = a + b` is named by the plain
  numbers below `c`, so the statement applies to a literal `c` (549 = 384 + 165) without any cast between index types.
  Applied repeatedly it splits a contraction over the columns of several arrays joined side by side into one
  contraction per array. Only associativity and commutativity of addition are used, so it holds for extended reals,
  infinities included.
-/
import Mathlib.Algebra.BigOperators.Fin

namespace Cert.LibSumGroups

/-- A sum over `a + b = c` consecutive indices is the sum over the first `a` plus the sum over the last `b`. -/
theorem sum_fin_add {M : Type*} [AddCommMonoid M] (a b c : ℕ) (h : a + b = c) (f : Fin c → M) :
    ∑ k : Fin c, f k = ∑ k : Fin a, f ⟨k.val, by omega⟩ + ∑ k : Fin b, f ⟨a + k.val, by omega⟩ := by
  subst h
  exact Fin.sum_univ_add f

end Cert.LibSumGroups
-- ==== Proof.EdgeSpec.lean ====
/-
  The per-edge quantities, entry by entry, on the extended reals.

  An edge's feature is built from three projected rows — of its source and destination entities and of its relation.
  With `s`, `d`, `r` those rows (128 entries each), the feature's entry `j` is the contraction of the three rows laid
  side by side against the 384 × 128 weight, plus a bias: the sum over 384 positions splits into the three sums over
  128 positions against rows `0…127`, `128…255`, `256…383` of the weight (`sum384`). Only associativity and
  commutativity of addition are used, so this holds with infinite entries too. The edge's weight is the exponential of
  the leaky rectifier of its score (`act`).
-/
import Idealize.ShloMosaic.PureOps.Ideal
import Idealize.ShloMosaic.Lib.ValueIdx
import proofs.«156960_j59090160058522_1_alg».proof.Proof.LibSumGroups

noncomputable section

namespace Cert.EdgeSpec

open Idealize.ShloMosaic Idealize.ShloMosaic.ValueIdx

/-- The row a start word names in a table of `N` rows: the word read signed, clamped into `[0, N − 1]`. -/
def rowOf (N : Nat) (hN : 0 < N) (w : BitVec 32) : Fin N := ⟨min w.toInt.toNat (N - 1), by omega⟩

/-- Entry `k` of row `n` of `x · W + b`. -/
def lin {N : Nat} (X : (⟨2, ![N, 128]⟩ : Shape).Idx → EReal) (W : (⟨2, ![128, 128]⟩ : Shape).Idx → EReal)
    (b : (⟨1, ![128]⟩ : Shape).Idx → EReal) (n : Fin N) (k : Fin 128) : EReal :=
  ∑ i : Fin 128, X (ix2 n i) * W (ix2 i k) + b (ix1 k)

/-- Entry `j` of an edge's feature, from its three projected rows. -/
def feat (s d r : Fin 128 → EReal) (W2 : (⟨2, ![384, 128]⟩ : Shape).Idx → EReal) (b2 : (⟨1, ![128]⟩ : Shape).Idx → EReal)
    (j : Fin 128) : EReal :=
  ((∑ k : Fin 128, s k * W2 (ix2 (⟨k.val, by have := k.isLt; omega⟩ : Fin 384) j)
      + ∑ k : Fin 128, d k * W2 (ix2 (⟨128 + k.val, by have := k.isLt; omega⟩ : Fin 384) j))
    + ∑ k : Fin 128, r k * W2 (ix2 (⟨256 + k.val, by have := k.isLt; omega⟩ : Fin 384) j)) + b2 (ix1 j)

/-- The weight of an edge from its score: the exponential of the score where it is at least zero, of the printed slope
    times the score elsewhere. -/
def act (s : EReal) : EReal :=
  Ideal.exp (Scalar.select (FloatOps.cmpf (F := Ideal) (φ := .f32) .oge s (Ideal.ofBits .f32 0x00000000#32)) s
    (Ideal.ofBits .f32 0x3C23D70A#32 * s))

/-- A sum over 384 positions is the sum over the first 128, the next 128 and the last 128. -/
theorem sum384 (f : Fin 384 → EReal) :
    ∑ k : Fin 384, f k = (∑ k : Fin 128, f ⟨k.val, by have := k.isLt; omega⟩
      + ∑ k : Fin 128, f ⟨128 + k.val, by have := k.isLt; omega⟩) + ∑ k : Fin 128, f ⟨256 + k.val, by have := k.isLt; omega⟩ := by
  rw [Cert.LibSumGroups.sum_fin_add 256 128 384 rfl f,
    Cert.LibSumGroups.sum_fin_add 128 128 256 rfl (fun k => f ⟨k.val, by have := k.isLt; omega⟩)]

end Cert.EdgeSpec

end
-- ==== Proof.Region1.lean ====
/-
  What the edge kernel leaves in its two output arrays.

  At grid point `t` the kernel reads rows `5000·t … 5000·t + 4999` of the three gathered arrays (source, destination,
  relation rows), the three 128 × 128 weights, the bias row, the attention column and its bias, and writes the same rows
  of the feature array and of the weight column. Entry `(p, q)` of the feature block is
  `((Σₖ s(p,k)·Ws(k,q) + Σₖ d(p,k)·Wd(k,q)) + Σₖ r(p,k)·Wr(k,q)) + b(0,q)`, and entry `(p, 0)` of the weight block is
  the activation of `Σⱼ feature(p,j)·a(j,0) + a₀(0,0)`; both depend on row `5000·t + p` of the gathered arrays only. So
  the blocks are restrictions of one function each of the whole arrays (`featArr`, `weightCol`), and as the hundred
  blocks tile each output, the outputs end holding them.
-/
import proofs.«156960_j59090160058522_1_alg».proof.Proof.Gen.KernelIdeal.Frame
import proofs.«156960_j59090160058522_1_alg».proof.Proof.LibDotSum
import proofs.«156960_j59090160058522_1_alg».proof.Proof.EdgeSpec
import Idealize.ShloMosaic.PureOps.Ideal.Laws
import Idealize.ShloMosaic.Lib.ValueIdx
import Idealize.ShloMosaic.Lib.Pipeline.Value

set_option maxRecDepth 16384

noncomputable section

namespace Cert.KernelIdeal.Region1

open Cert.KernelIdeal Cert.KernelIdeal.Gen Cert.EdgeSpec
open Idealize.ShloMosaic Idealize.ShloMosaic.TcCoe Idealize.ShloMosaic.ValueIdx Idealize.SL.Sem
open Idealize.ShloMosaic.Pipeline (Dat)

/-- The feature array: entry `(e, j)` from row `e` of the three gathered arrays. -/
def featArr (s d r : FVec Ideal S500000x128 .f32) (ws wd wr : FVec Ideal S128x128 .f32) (b : FVec Ideal S1x128 .f32) :
    FVec Ideal S500000x128 .f32 :=
  fun i => ((∑ k : Fin 128, s (ix2 (i 0) k) * ws (ix2 k (i 1)) + ∑ k : Fin 128, d (ix2 (i 0) k) * wd (ix2 k (i 1)))
    + ∑ k : Fin 128, r (ix2 (i 0) k) * wr (ix2 k (i 1))) + b (ix2 (0 : Fin 1) (i 1))

/-- The weight column: entry `(e, 0)` is the activation of the score of edge `e`. -/
def weightCol (cF : FVec Ideal S500000x128 .f32) (aw : FVec Ideal S128x1 .f32) (ab : FVec Ideal S1x1 .f32) :
    FVec Ideal S500000x1 .f32 :=
  fun i => act (∑ j : Fin 128, cF (ix2 (i 0) j) * aw (ix2 j (0 : Fin 1)) + ab (ix2 (0 : Fin 1) (0 : Fin 1)))

/-- A 5000 × 128 by 128 × 128 product into the zero array, at `(p, q)`. -/
theorem mm128 (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) :=
  (Ideal.matmul_constant_zero_apply _ none x w (ix2 p q)).trans
    (Cert.LibDotSum.sum_dot dot_S5000x128_S128x128_S5000x128_1_0_0_1_n_n rfl rfl (fun _ _ => rfl) (fun _ _ => rfl)
      (fun _ _ => rfl) (fun _ _ => rfl) x w p q)

/-- A 5000 × 128 by 128 × 1 product into the zero array, at `(p, 0)`. -/
theorem mm1 (x : FVec Ideal S5000x128 .f32) (w : FVec Ideal S128x1 .f32) (p : Fin 5000) (q : Fin 1) :
    matmul dot_S5000x128_S128x1_S5000x1_1_0_0_1_n_n none x w (constant (F := Ideal) S5000x1 .f32 0x00000000#32) (ix2 p q)
      = ∑ k : Fin 128, x (ix2 p k) * w (ix2 k q) :=
  (Ideal.matmul_constant_zero_apply _ none x w (ix2 p q)).trans
    (Cert.LibDotSum.sum_dot dot_S5000x128_S128x1_S5000x1_1_0_0_1_n_n rfl rfl (fun _ _ => rfl) (fun _ _ => rfl)
      (fun _ _ => rfl) (fun _ _ => rfl) x w p q)

/-- The feature payload at `(p, q)`. -/
theorem pay2_apply (x0 x1 x2 : FVec Ideal S5000x128 .f32) (x3 x4 x5 : FVec Ideal S128x128 .f32) (x6 : FVec Ideal S1x128 .f32)
    (p : Fin 5000) (q : Fin 128) :
    k1_pay2 (F := Ideal) x0 x1 x2 x3 x4 x5 x6 (ix2 p q)
      = ((∑ k : Fin 128, x0 (ix2 p k) * x3 (ix2 k q) + ∑ k : Fin 128, x1 (ix2 p k) * x4 (ix2 k q))
          + ∑ k : Fin 128, x2 (ix2 p k) * x5 (ix2 k q)) + x6 (ix2 (0 : Fin 1) q) := by
  unfold k1_pay2
  simp only [shapeCast_self]
  show ((matmul dot_S5000x128_S128x128_S5000x128_1_0_0_1_n_n none x0 x3 (constant (F := Ideal) S5000x128 .f32 0x00000000#32) (ix2 p q)
        + matmul dot_S5000x128_S128x128_S5000x128_1_0_0_1_n_n none x1 x4 (constant (F := Ideal) S5000x128 .f32 0x00000000#32) (ix2 p q))
      + matmul dot_S5000x128_S128x128_S5000x128_1_0_0_1_n_n none x2 x5 (constant (F := Ideal) S5000x128 .f32 0x00000000#32) (ix2 p q))
      + broadcastTo S5000x128 x6 broadcasts_S1x128_S5000x128 (ix2 p q) = _
  rw [mm128, mm128, mm128]
  refine congrArg₂ (· + ·) rfl ?_
  exact broadcastTo_apply x6 _ (ix2 p q) (ix2 (0 : Fin 1) q) (fun a => by
    match a with
    | ⟨0, _⟩ => rfl
    | ⟨1, _⟩ => rfl)

/-- The weight payload at `p`: the activation of the score of row `p`. -/
theorem pay3_apply (x0 x1 x2 : FVec Ideal S5000x128 .f32) (x3 x4 x5 : FVec Ideal S128x128 .f32) (x6 : FVec Ideal S1x128 .f32)
    (x7 : FVec Ideal S128x1 .f32) (x8 : FVec Ideal S1x1 .f32) (p : Fin 5000) :
    k1_pay3 (F := Ideal) x0 x1 x2 x3 x4 x5 x6 x7 x8 (ix1 p)
      = act (∑ j : Fin 128, k1_pay2 (F := Ideal) x0 x1 x2 x3 x4 x5 x6 (ix2 p j) * x7 (ix2 j (0 : Fin 1)) + x8 (ix2 (0 : Fin 1) (0 : Fin 1))) := by
  unfold k1_pay3
  simp only [shapeCast_self]
  have hs : shapeCast S5000 (addf (matmul dot_S5000x128_S128x1_S5000x1_1_0_0_1_n_n none (k1_pay2 (F := Ideal) x0 x1 x2 x3 x4 x5 x6) x7
        (constant (F := Ideal) S5000x1 .f32 0x00000000#32)) (broadcastTo S5000x1 x8 broadcasts_S1x1_S5000x1)) shapeCasts_S5000x1_S5000 (ix1 p)
      = ∑ j : Fin 128, k1_pay2 (F := Ideal) x0 x1 x2 x3 x4 x5 x6 (ix2 p j) * x7 (ix2 j (0 : Fin 1)) + x8 (ix2 (0 : Fin 1) (0 : Fin 1)) := by
    refine (shapeCast_apply _ shapeCasts_S5000x1_S5000 (ix1 p) (ix2 p (0 : Fin 1)) ?_).trans ?_
    · rw [Shape.rowMajor_val_one, Shape.rowMajor_val_two]
      show p.val * 1 + 0 = p.val
      omega
    · show matmul dot_S5000x128_S128x1_S5000x1_1_0_0_1_n_n none (k1_pay2 (F := Ideal) x0 x1 x2 x3 x4 x5 x6) x7
          (constant (F := Ideal) S5000x1 .f32 0x00000000#32) (ix2 p (0 : Fin 1))
          + broadcastTo S5000x1 x8 broadcasts_S1x1_S5000x1 (ix2 p (0 : Fin 1)) = _
      rw [mm1]
      refine congrArg₂ (· + ·) rfl ?_
      exact broadcastTo_apply x8 _ (ix2 p (0 : Fin 1)) (ix2 (0 : Fin 1) (0 : Fin 1)) (fun a => by
        match a with
        | ⟨0, _⟩ => rfl
        | ⟨1, _⟩ => rfl)
  rw [← hs]
  rfl

/-- The weight's column view at `(p, 0)` is the weight vector's entry `p`. -/
theorem pay1_apply (v : FVec Ideal S5000 .f32) (p : Fin 5000) : k1_pay1 v (ix2 p (0 : Fin 1)) = v (ix1 p) := by
  unfold k1_pay1
  refine shapeCast_apply v shapeCasts_S5000_S5000x1 (ix2 p (0 : Fin 1)) (ix1 p) ?_
  rw [Shape.rowMajor_val_one, Shape.rowMajor_val_two]
  show p.val = p.val * 1 + 0
  omega

theorem hz : (![0, 0] : Fin 2 → Nat) = fun _ => 0 := funext fun a => by fin_cases a <;> rfl

/-- The printed index maps over the hundred grid points: the gathered arrays' and the outputs' blocks move with the
    point, the other windows' stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

variable (V : (c : Dev nD) → (b : Ref sig .tc) → Buf (Elt Ideal) ((c : Thread nD τ).loc b))

/-- The feature array of the arrays the region finds. -/
abbrev feats (c : Dev nD) : FVec Ideal S500000x128 .f32 :=
  featArr (V c main_v18) (V c main_v25) (V c main_v32) (V c main_v33) (V c main_v34) (V c main_v35) (V c main_v36)

section Blocks

variable (c : Dev nD) (t : Fin cfg1.N)

/-- Row `p` of a moving window's block at point `t` is row `5000·t + p` of its array; a fixed window's block is its array. -/
theorem blocks (p : Fin 5000) (hrow : t.val * 5000 + p.val < 500000) :
    (∀ k : Fin 128, iblk1 V c 0 t (ix2 p k) = V c main_v18 (ix2 (⟨t.val * 5000 + p.val, hrow⟩ : Fin 500000) k))
    ∧ (∀ k : Fin 128, iblk1 V c 1 t (ix2 p k) = V c main_v25 (ix2 (⟨t.val * 5000 + p.val, hrow⟩ : Fin 500000) k))
    ∧ (∀ k : Fin 128, iblk1 V c 2 t (ix2 p k) = V c main_v32 (ix2 (⟨t.val * 5000 + p.val, hrow⟩ : Fin 500000) k))
    ∧ (∀ k q : Fin 128, iblk1 V c 3 t (ix2 k q) = V c main_v33 (ix2 k q))
    ∧ (∀ k q : Fin 128, iblk1 V c 4 t (ix2 k q) = V c main_v34 (ix2 k q))
    ∧ (∀ k q : Fin 128, iblk1 V c 5 t (ix2 k q) = V c main_v35 (ix2 k q))
    ∧ (∀ q : Fin 128, iblk1 V c 6 t (ix2 (0 : Fin 1) q) = V c main_v36 (ix2 (0 : Fin 1) q))
    ∧ (∀ j : Fin 128, iblk1 V c 7 t (ix2 j (0 : Fin 1)) = V c main_arg9 (ix2 j (0 : Fin 1)))
    ∧ iblk1 V c 8 t (ix2 (0 : Fin 1) (0 : Fin 1)) = V c main_v37 (ix2 (0 : Fin 1) (0 : Fin 1)) := by
  obtain ⟨e00, e01, e10, e11, e20, e21, e30, e31, e40, e41, e50, e51, e60, e61, e70, e71, e80, e81, -, -, -, -⟩ := idx_facts t
  refine ⟨fun k => ?_, fun k => ?_, fun k => ?_, fun k q => ?_, fun k q => ?_, fun k q => ?_, fun q => ?_, fun j => ?_, ?_⟩
  · show V c main_v18 (((cfg1.win 0).blk t).view.emb (ix2 p k)) = _
    refine congrArg (V c main_v18) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v25 (((cfg1.win 1).blk t).view.emb (ix2 p k)) = _
    refine congrArg (V c main_v25) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  · show V c main_v32 (((cfg1.win 2).blk t).view.emb (ix2 p k)) = _
    refine congrArg (V c main_v32) ?_
    funext a; apply Fin.ext
    match a with
    | ⟨0, _⟩ => show win1_2.index t (0 : Fin 2) * 5000 + 1 * p.val = t.val * 5000 + p.val; omega
    | ⟨1, _⟩ => show win1_2.index t (1 : Fin 2) * 128 + 1 * k.val = k.val; omega
  · show V c main_v33 (((cfg1.win 3).blk t).view.emb (ix2 k q)) = _
    refine congrArg (V c main_v33) ?_
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  · show V c main_v34 (((cfg1.win 4).blk t).view.emb (ix2 k q)) = _
    refine congrArg (V c main_v34) ?_
    funext a; apply Fin.ext
    match a with
    | ⟨0, _⟩ => show win1_4.index t (0 : Fin 2) * 128 + 1 * k.val = k.val; omega
    | ⟨1, _⟩ => show win1_4.index t (1 : Fin 2) * 128 + 1 * q.val = q.val; omega
  · show V c main_v35 (((cfg1.win 5).blk t).view.emb (ix2 k q)) = _
    refine congrArg (V c main_v35) ?_
    funext a; apply Fin.ext
    match a with
    | ⟨0, _⟩ => show win1_5.index t (0 : Fin 2) * 128 + 1 * k.val = k.val; omega
    | ⟨1, _⟩ => show win1_5.index t (1 : Fin 2) * 128 + 1 * q.val = q.val; omega
  · show V c main_v36 (((cfg1.win 6).blk t).view.emb (ix2 (0 : Fin 1) q)) = _
    refine congrArg (V c main_v36) ?_
    funext a; apply Fin.ext
    match a with
    | ⟨0, _⟩ => show win1_6.index t (0 : Fin 2) * 1 + 1 * 0 = 0; omega
    | ⟨1, _⟩ => show win1_6.index t (1 : Fin 2) * 128 + 1 * q.val = q.val; omega
  · show V c main_arg9 (((cfg1.win 7).blk t).view.emb (ix2 j (0 : Fin 1))) = _
    refine congrArg (V c main_arg9) ?_
    funext a; apply Fin.ext
    match a with
    | ⟨0, _⟩ => show win1_7.index t (0 : Fin 2) * 128 + 1 * j.val = j.val; omega
    | ⟨1, _⟩ => show win1_7.index t (1 : Fin 2) * 1 + 1 * 0 = 0; omega
  · show V c main_v37 (((cfg1.win 8).blk t).view.emb (ix2 (0 : Fin 1) (0 : Fin 1))) = _
    refine congrArg (V c main_v37) ?_
    funext a; apply Fin.ext
    match a with
    | ⟨0, _⟩ => show win1_8.index t (0 : Fin 2) * 1 + 1 * 0 = 0; omega
    | ⟨1, _⟩ => show win1_8.index t (1 : Fin 2) * 1 + 1 * 0 = 0; omega

/-- The feature payload of the point's blocks at `(p, q)` is the feature array at `(5000·t + p, q)`. -/
theorem pay2_blocks (p : Fin 5000) (q : Fin 128) (hrow : t.val * 5000 + p.val < 500000) :
    k1_pay2 (iblk1 V c 0 t) (iblk1 V c 1 t) (iblk1 V c 2 t) (iblk1 V c 3 t) (iblk1 V c 4 t) (iblk1 V c 5 t) (iblk1 V c 6 t) (ix2 p q)
      = feats V c (ix2 (⟨t.val * 5000 + p.val, hrow⟩ : Fin 500000) q) := by
  obtain ⟨h0, h1, h2, h3, h4, h5, h6, -, -⟩ := blocks V c t p hrow
  refine (pay2_apply (iblk1 V c 0 t) (iblk1 V c 1 t) (iblk1 V c 2 t) (iblk1 V c 3 t) (iblk1 V c 4 t) (iblk1 V c 5 t) (iblk1 V c 6 t) p q).trans ?_
  simp only [h0, h1, h2, h3, h4, h5, h6]
  rfl

end Blocks

/-- WHAT POINT `t` WRITES BACK into the feature array is block `t` of `feats`. -/
theorem flushed9_eq (c : Dev nD) (t : Fin cfg1.N) :
    (dat1 V c).flushed 9 t = ((cfg1.win 9).blk t).view.read (Elt Ideal) (feats V c) := by
  show (cfg1.win 9).cut (grid1.coords t) ((dat1 V c).after 9 t) = _
  rw [after1_9]
  unfold out1_9
  rw [View.canon_unit_zero hz]
  simp only [View.ld_unit_zero (S := S5000x128) hz, View.ld_unit_zero (S := S128x128) hz, View.ld_unit_zero (S := S1x128) hz]
  obtain ⟨-, -, -, -, -, -, -, -, -, -, -, -, -, -, -, -, -, -, e90, e91, -, -⟩ := idx_facts t
  have ht : t.val < 100 := lt_of_lt_of_eq t.isLt N_1
  funext j
  obtain ⟨p, q, rfl⟩ : ∃ (p : Fin 5000) (q : Fin 128), j = ix2 p q := ⟨j 0, j 1, eq_ix2 j⟩
  have hrow : t.val * 5000 + p.val < 500000 := by have := p.isLt; omega
  refine (pay2_blocks V c t p q hrow).trans ?_
  have h9 : ((cfg1.win 9).blk t).view.emb (ix2 p q) = ix2 (⟨t.val * 5000 + p.val, hrow⟩ : Fin 500000) q := by
    funext a; apply Fin.ext
    match a with
    | ⟨0, _⟩ => show win1_9.index t (0 : Fin 2) * 5000 + 1 * p.val = t.val * 5000 + p.val; omega
    | ⟨1, _⟩ => show win1_9.index t (1 : Fin 2) * 128 + 1 * q.val = q.val; omega
  show _ = feats V c (((cfg1.win 9).blk t).view.emb (ix2 p q))
  rw [h9]

/-- WHAT POINT `t` WRITES BACK into the weight column is block `t` of `weightCol` of `feats`. -/
theorem flushed10_eq (c : Dev nD) (t : Fin cfg1.N) :
    (dat1 V c).flushed 10 t
      = ((cfg1.win 10).blk t).view.read (Elt Ideal) (weightCol (feats V c) (V c main_arg9) (V c main_v37)) := by
  show (cfg1.win 10).cut (grid1.coords t) ((dat1 V c).after 10 t) = _
  rw [after1_10]
  unfold out1_10
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  obtain ⟨-, -, -, -, -, -, -, -, -, -, -, -, -, -, -, -, -, -, -, -, e100, e101⟩ := idx_facts t
  have ht : t.val < 100 := lt_of_lt_of_eq t.isLt N_1
  funext j
  obtain ⟨p, u, rfl⟩ : ∃ (p : Fin 5000) (u : Fin 1), j = ix2 p u := ⟨j 0, j 1, eq_ix2 j⟩
  obtain rfl : u = 0 := Subsingleton.elim _ _
  have hrow : t.val * 5000 + p.val < 500000 := by have := p.isLt; omega
  obtain ⟨-, -, -, -, -, -, -, h7, h8⟩ := blocks V c t p hrow
  refine (pay1_apply _ p).trans ?_
  refine (pay3_apply (iblk1 V c 0 t) (iblk1 V c 1 t) (iblk1 V c 2 t) (iblk1 V c 3 t) (iblk1 V c 4 t) (iblk1 V c 5 t) (iblk1 V c 6 t)
    (iblk1 V c 7 t) (iblk1 V c 8 t) p).trans ?_
  have h10 : ((cfg1.win 10).blk t).view.emb (ix2 p (0 : Fin 1)) = ix2 (⟨t.val * 5000 + p.val, hrow⟩ : Fin 500000) (0 : Fin 1) := by
    funext a; apply Fin.ext
    match a with
    | ⟨0, _⟩ => show win1_10.index t (0 : Fin 2) * 5000 + 1 * p.val = t.val * 5000 + p.val; omega
    | ⟨1, _⟩ => show win1_10.index t (1 : Fin 2) * 1 + 1 * 0 = 0; omega
  show _ = weightCol (feats V c) (V c main_arg9) (V c main_v37) (((cfg1.win 10).blk t).view.emb (ix2 p (0 : Fin 1)))
  rw [h10]
  simp only [pay2_blocks V c t p _ hrow, h7, h8]
  rfl

/-- An index of the feature array is in point `t`'s block iff each coordinate is in the block's range on its axis. -/
theorem mem_blk9 (t : Fin cfg1.N) (i : S500000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v38_0).slice (win1_9.rect t)).set ↔ _
  rw [View.set_slice_whole, Rect.mem_set_unit]
  exact Iff.rfl

/-- The same for the weight column. -/
theorem mem_blk10 (t : Fin cfg1.N) (i : S500000x1.Idx) :
    i ∈ ((cfg1.win 10).blk t).view.set ↔ ∀ a : Fin 2, win1_10.index t a * S5000x1.size a ≤ (i a).val
      ∧ (i a).val < win1_10.index t a * S5000x1.size a + S5000x1.size a := by
  show i ∈ ((View.whole main_v38_1).slice (win1_10.rect t)).set ↔ _
  rw [View.set_slice_whole, Rect.mem_set_unit]
  exact Iff.rfl

/-- The hundred blocks tile the feature array: row `r` is in the block of point `r / 5000`. -/
theorem cover9 (i : S500000x128.Idx) : ∃ t : Fin cfg1.N, (cfg1.win 9).flush t = true ∧ i ∈ ((cfg1.win 9).blk t).view.set := by
  have hi0 : (i 0).val < 500000 := (i 0).isLt
  have hi1 : (i 1).val < 128 := (i 1).isLt
  have hN : (i 0).val / 5000 < cfg1.N := lt_of_lt_of_eq (by omega : (i 0).val / 5000 < 100) N_1.symm
  refine ⟨⟨(i 0).val / 5000, hN⟩, flush1_9 _, ?_⟩
  obtain ⟨-, -, -, -, -, -, -, -, -, -, -, -, -, -, -, -, -, -, e90, e91, -, -⟩ := idx_facts ⟨(i 0).val / 5000, hN⟩
  rw [mem_blk9]
  intro a
  match a with
  | ⟨0, _⟩ =>
    show win1_9.index _ (0 : Fin 2) * 5000 ≤ (i 0).val ∧ (i 0).val < win1_9.index _ (0 : Fin 2) * 5000 + 5000
    rw [e90]; show (i 0).val / 5000 * 5000 ≤ (i 0).val ∧ (i 0).val < (i 0).val / 5000 * 5000 + 5000; omega
  | ⟨1, _⟩ =>
    show win1_9.index _ (1 : Fin 2) * 128 ≤ (i 1).val ∧ (i 1).val < win1_9.index _ (1 : Fin 2) * 128 + 128
    rw [e91]; omega

/-- And the weight column. -/
theorem cover10 (i : S500000x1.Idx) : ∃ t : Fin cfg1.N, (cfg1.win 10).flush t = true ∧ i ∈ ((cfg1.win 10).blk t).view.set := by
  have hi0 : (i 0).val < 500000 := (i 0).isLt
  have hi1 : (i 1).val < 1 := (i 1).isLt
  have hN : (i 0).val / 5000 < cfg1.N := lt_of_lt_of_eq (by omega : (i 0).val / 5000 < 100) N_1.symm
  refine ⟨⟨(i 0).val / 5000, hN⟩, flush1_10 _, ?_⟩
  obtain ⟨-, -, -, -, -, -, -, -, -, -, -, -, -, -, -, -, -, -, -, -, e100, e101⟩ := idx_facts ⟨(i 0).val / 5000, hN⟩
  rw [mem_blk10]
  intro a
  match a with
  | ⟨0, _⟩ =>
    show win1_10.index _ (0 : Fin 2) * 5000 ≤ (i 0).val ∧ (i 0).val < win1_10.index _ (0 : Fin 2) * 5000 + 5000
    rw [e100]; show (i 0).val / 5000 * 5000 ≤ (i 0).val ∧ (i 0).val < (i 0).val / 5000 * 5000 + 5000; omega
  | ⟨1, _⟩ =>
    show win1_10.index _ (1 : Fin 2) * 1 ≤ (i 1).val ∧ (i 1).val < win1_10.index _ (1 : Fin 2) * 1 + 1
    rw [e101]; omega

/-- THE FEATURE ARRAY after the region. -/
theorem final9 (c : Dev nD) : (dat1 V c).arrAt 9 cfg1.N = feats V c :=
  (dat1 V c).arrAt_eq_of_cover 9 _ (fun t _ => flushed9_eq V c t) cover9

/-- THE WEIGHT COLUMN after the region. -/
theorem final10 (c : Dev nD) :
    (dat1 V c).arrAt 10 cfg1.N = weightCol (feats V c) (V c main_arg9) (V c main_v37) :=
  (dat1 V c).arrAt_eq_of_cover 10 _ (fun t _ => flushed10_eq V c t) cover10

end Cert.KernelIdeal.Region1

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.KValue.lean ====
/-
  The idealized kernel program's per-edge feature and weight, entry by entry, in terms of the argument arrays.

  The edge kernel's region finds, for each edge, the rows of the PROJECTED tables its start words name: a gathered row
  of the projection kernel's output is `x · W + b` at the table row the start word names, and likewise for the relation
  table projected on the host. The three 128 × 128 weights it finds are rows `0…127`, `128…255`, `256…383` of the
  384 × 128 weight, and the bias rows are the bias vectors. So the feature array at `(e, j)` is `EdgeSpec.feat` of the
  three projected rows of edge `e`, and the weight column read as a vector is the activation of the score.
-/
import proofs.«156960_j59090160058522_1_alg».proof.Proof.KRead
import proofs.«156960_j59090160058522_1_alg».proof.Proof.Region0
import proofs.«156960_j59090160058522_1_alg».proof.Proof.Region1
import proofs.«156960_j59090160058522_1_alg».proof.Proof.LibScatterGather
import proofs.«156960_j59090160058522_1_alg».proof.Proof.LibDotSum
import proofs.«156960_j59090160058522_1_alg».proof.Proof.EdgeSpec
import Idealize.ShloMosaic.PureOps.Ideal.Laws
import Idealize.ShloMosaic.Lib.ValueIdx
import Idealize.ShloMosaic.Lib.Pipeline.Value

set_option maxRecDepth 16384

noncomputable section

namespace Cert.KernelIdeal.KValue

open Cert.KernelIdeal Cert.KernelIdeal.Gen Cert.KernelIdeal.Tail Cert.KernelIdeal.KRead Cert.EdgeSpec
open Idealize.ShloMosaic Idealize.ShloMosaic.TcCoe Idealize.ShloMosaic.ValueIdx Idealize.SL.Sem

/-! ## Layout operations at an entry, over typed arrays -/

/-- A vector laid out as one row, at `(0, j)`. -/
theorem row128_apply (b : FVec Ideal S128 .f32) (j : Fin 128) :
    shapeCast S1x128 b shapeCasts_S128_S1x128 (ix2 (0 : Fin 1) j) = b (ix1 j) := by
  refine shapeCast_apply b shapeCasts_S128_S1x128 (ix2 (0 : Fin 1) j) (ix1 j) ?_
  rw [Shape.rowMajor_val_one, Shape.rowMajor_val_two]
  show j.val = 0 * 128 + j.val
  omega

/-- A one-entry vector laid out as a 1 × 1 array. -/
theorem one_apply (b : FVec Ideal S1 .f32) :
    shapeCast S1x1 b shapeCasts_S1_S1x1 (ix2 (0 : Fin 1) (0 : Fin 1)) = b (ix1 (0 : Fin 1)) := by
  refine shapeCast_apply b shapeCasts_S1_S1x1 (ix2 (0 : Fin 1) (0 : Fin 1)) (ix1 (0 : Fin 1)) ?_
  rw [Shape.rowMajor_val_one, Shape.rowMajor_val_two]
  rfl

/-- Rows `0 … 127` of the 384 × 128 weight, at `(k, j)`. -/
theorem slice0_apply (W : FVec Ideal S384x128 .f32) (k j : Fin 128) :
    extractStridedSlice S128x128 ![0, 0] W slices_S384x128_S128x128_0_0 (ix2 k j)
      = W (ix2 (⟨k.val, by have := k.isLt; omega⟩ : Fin 384) j) := by
  refine extractStridedSlice_apply ![0, 0] W _ (ix2 k j) (ix2 (⟨k.val, by have := k.isLt; omega⟩ : Fin 384) j) (fun a => ?_)
  match a with
  | ⟨0, _⟩ =>
    show k.val = 0 + k.val
    omega
  | ⟨1, _⟩ =>
    show j.val = 0 + j.val
    omega

/-- Rows `128 … 255`. -/
theorem slice128_apply (W : FVec Ideal S384x128 .f32) (k j : Fin 128) :
    extractStridedSlice S128x128 ![128, 0] W slices_S384x128_S128x128_128_0 (ix2 k j)
      = W (ix2 (⟨128 + k.val, by have := k.isLt; omega⟩ : Fin 384) j) := by
  refine extractStridedSlice_apply ![128, 0] W _ (ix2 k j) (ix2 (⟨128 + k.val, by have := k.isLt; omega⟩ : Fin 384) j) (fun a => ?_)
  match a with
  | ⟨0, _⟩ => rfl
  | ⟨1, _⟩ =>
    show j.val = 0 + j.val
    omega

/-- Rows `256 … 383`. -/
theorem slice256_apply (W : FVec Ideal S384x128 .f32) (k j : Fin 128) :
    extractStridedSlice S128x128 ![256, 0] W slices_S384x128_S128x128_256_0 (ix2 k j)
      = W (ix2 (⟨256 + k.val, by have := k.isLt; omega⟩ : Fin 384) j) := by
  refine extractStridedSlice_apply ![256, 0] W _ (ix2 k j) (ix2 (⟨256 + k.val, by have := k.isLt; omega⟩ : Fin 384) j) (fun a => ?_)
  match a with
  | ⟨0, _⟩ => rfl
  | ⟨1, _⟩ =>
    show j.val = 0 + j.val
    omega

/-- The relation table projected on the host, at `(n, k)`. -/
theorem relProj_apply (X : FVec Ideal S237x128 .f32) (W : FVec Ideal S128x128 .f32) (b : FVec Ideal S128 .f32)
    (n : Fin 237) (k : Fin 128) : relProj (F := Ideal) X W b (ix2 n k) = lin X W b n k := by
  unfold relProj lin
  show Host.dotGeneral dot_S237x128_S128x128_S237x128_1_0_0_1_n_n none X W (ix2 n k)
      + broadcastInDim S237x128 ![0, 1] bcast_S1x128_S237x128_0_1 (broadcastInDim S1x128 ![1] bcast_S128_S1x128_1 b) (ix2 n k) = _
  rw [Cert.LibDotSum.bias_apply b bcast_S128_S1x128_1 bcast_S1x128_S237x128_0_1 n k]
  refine congrArg (· + b (ix1 k)) ?_
  exact (Ideal.dotGeneral_apply _ none .single X W (ix2 n k)).trans
    (Cert.LibDotSum.sum_dot dot_S237x128_S128x128_S237x128_1_0_0_1_n_n rfl rfl (fun _ _ => rfl) (fun _ _ => rfl)
      (fun _ _ => rfl) (fun _ _ => rfl) X W n k)

/-- The projection kernel's function with the bias vector laid out as a row, at `(n, k)`. -/
theorem proj_apply (X : FVec Ideal S100000x128 .f32) (W : FVec Ideal S128x128 .f32) (b : FVec Ideal S128 .f32)
    (n : Fin 100000) (k : Fin 128) :
    Region0.proj X W (shapeCast S1x128 b shapeCasts_S128_S1x128) (ix2 n k) = lin X W b n k := by
  unfold Region0.proj lin
  show ∑ i : Fin 128, X (ix2 n i) * W (ix2 i k) + shapeCast S1x128 b shapeCasts_S128_S1x128 (ix2 (0 : Fin 1) k) = _
  rw [row128_apply]

/-- The feature array at `(e, j)`, written out. -/
theorem featArr_apply (s d r : FVec Ideal S500000x128 .f32) (ws wd wr : FVec Ideal S128x128 .f32) (b : FVec Ideal S1x128 .f32)
    (e : Fin 500000) (j : Fin 128) :
    Region1.featArr s d r ws wd wr b (ix2 e j)
      = ((∑ k : Fin 128, s (ix2 e k) * ws (ix2 k j) + ∑ k : Fin 128, d (ix2 e k) * wd (ix2 k j))
          + ∑ k : Fin 128, r (ix2 e k) * wr (ix2 k j)) + b (ix2 (0 : Fin 1) j) := rfl

/-- The weight column at `(e, 0)`, written out. -/
theorem weightCol_apply (cF : FVec Ideal S500000x128 .f32) (aw : FVec Ideal S128x1 .f32) (ab : FVec Ideal S1x1 .f32) (e : Fin 500000) :
    Region1.weightCol cF aw ab (ix2 e (0 : Fin 1))
      = act (∑ j : Fin 128, cF (ix2 e j) * aw (ix2 j (0 : Fin 1)) + ab (ix2 (0 : Fin 1) (0 : Fin 1))) := rfl

/-! ## The argument arrays, typed -/

variable (m : (ℓ : Loc nD τ sig) → Buf (Elt Ideal) ℓ) (ρ : Dev nD → PrngReg) (c : Dev nD)

/-- The edge list. -/
abbrev aT : (⟨S500000x3, .i32⟩ : BufTy).Contents (Elt Ideal) := m ((c.tc : Thread nD τ).loc main_arg0)
/-- The entity table, its projection's weight and bias. -/
abbrev aX : FVec Ideal S100000x128 .f32 := m ((c.tc : Thread nD τ).loc main_arg1)
abbrev aWe : FVec Ideal S128x128 .f32 := m ((c.tc : Thread nD τ).loc main_arg3)
abbrev aBe : FVec Ideal S128 .f32 := m ((c.tc : Thread nD τ).loc main_arg4)
/-- The relation table, its projection's weight and bias. -/
abbrev aXr : FVec Ideal S237x128 .f32 := m ((c.tc : Thread nD τ).loc main_arg2)
abbrev aWr : FVec Ideal S128x128 .f32 := m ((c.tc : Thread nD τ).loc main_arg5)
abbrev aBr : FVec Ideal S128 .f32 := m ((c.tc : Thread nD τ).loc main_arg6)
/-- The 384 × 128 weight and its bias; the attention column and its bias. -/
abbrev aW2 : FVec Ideal S384x128 .f32 := m ((c.tc : Thread nD τ).loc main_arg7)
abbrev aB2 : FVec Ideal S128 .f32 := m ((c.tc : Thread nD τ).loc main_arg8)
abbrev aAw : FVec Ideal S128x1 .f32 := m ((c.tc : Thread nD τ).loc main_arg9)
abbrev aAb : FVec Ideal S1 .f32 := m ((c.tc : Thread nD τ).loc main_arg10)

/-! ## What the edge kernel's region finds -/

/-- The projection kernel's output array: the entity table projected. -/
theorem projected_eq :
    W2 m ρ c (Proc.devRef .tc main_v7) = Region0.proj (aX m c) (aWe m c) (shapeCast S1x128 (aBe m c) shapeCasts_S128_S1x128) := by
  rw [W2_main_v7, Region0.final (V1 m ρ) c]
  have a1 : V1 m ρ c main_arg1 = aX m c := W1_main_arg1 m ρ c
  have a3 : V1 m ρ c main_arg3 = aWe m c := W1_main_arg3 m ρ c
  have a6 : V1 m ρ c main_v6 = shapeCast S1x128 (aBe m c) shapeCasts_S128_S1x128 := W1_main_v6 m ρ c
  rw [a1, a3, a6]

/-- The gathered source rows: rows of the projected entity table. -/
theorem src_apply (e : Fin 500000) (k : Fin 128) :
    (V3 m ρ c main_v18 : FVec Ideal S500000x128 .f32) (ix2 e k)
      = lin (aX m c) (aWe m c) (aBe m c) (rowOf 100000 (by norm_num) (startWords 100000#32 (col0 (aT m c)) (ix2 e (0 : Fin 1)))) k := by
  have h : (V3 m ρ c main_v18 : FVec Ideal S500000x128 .f32)
      = Host.gather gather_S100000x128_S500000x1_S500000x128_1_0_n_n_0_1_1128
          (Region0.proj (aX m c) (aWe m c) (shapeCast S1x128 (aBe m c) shapeCasts_S128_S1x128)) (startWords 100000#32 (col0 (aT m c))) := by
    refine (W3_main_v18 m ρ c).trans ?_
    rw [projected_eq, W2_main_v1, W1_main_v1]
  rw [h]
  exact (Cert.Lib.ScatterGather.gather_rows_apply (N := 100000) (M := 500000) (C := 128) (by norm_num)
      gather_S100000x128_S500000x1_S500000x128_1_0_n_n_0_1_1128.wf _ (startWords 100000#32 (col0 (aT m c))) e k).trans
    (proj_apply _ _ _ _ k)

/-- The gathered destination rows. -/
theorem dst_apply (e : Fin 500000) (k : Fin 128) :
    (V3 m ρ c main_v25 : FVec Ideal S500000x128 .f32) (ix2 e k)
      = lin (aX m c) (aWe m c) (aBe m c) (rowOf 100000 (by norm_num) (startWords 100000#32 (col1 (aT m c)) (ix2 e (0 : Fin 1)))) k := by
  have h : (V3 m ρ c main_v25 : FVec Ideal S500000x128 .f32)
      = Host.gather gather_S100000x128_S500000x1_S500000x128_1_0_n_n_0_1_1128
          (Region0.proj (aX m c) (aWe m c) (shapeCast S1x128 (aBe m c) shapeCasts_S128_S1x128)) (startWords 100000#32 (col1 (aT m c))) := by
    refine (W3_main_v25 m ρ c).trans ?_
    rw [projected_eq, W2_main_v3, W1_main_v3]
  rw [h]
  exact (Cert.Lib.ScatterGather.gather_rows_apply (N := 100000) (M := 500000) (C := 128) (by norm_num)
      gather_S100000x128_S500000x1_S500000x128_1_0_n_n_0_1_1128.wf _ (startWords 100000#32 (col1 (aT m c))) e k).trans
    (proj_apply _ _ _ _ k)

/-- The gathered relation rows: rows of the projected relation table. -/
theorem rel_apply (e : Fin 500000) (k : Fin 128) :
    (V3 m ρ c main_v32 : FVec Ideal S500000x128 .f32) (ix2 e k)
      = lin (aXr m c) (aWr m c) (aBr m c) (rowOf 237 (by norm_num) (startWords 237#32 (col2 (aT m c)) (ix2 e (0 : Fin 1)))) k := by
  have h : (V3 m ρ c main_v32 : FVec Ideal S500000x128 .f32)
      = Host.gather gather_S237x128_S500000x1_S500000x128_1_0_n_n_0_1_1128
          (relProj (aXr m c) (aWr m c) (aBr m c)) (startWords 237#32 (col2 (aT m c))) := by
    refine (W3_main_v32 m ρ c).trans ?_
    rw [W2_main_arg2, W2_main_arg5, W2_main_arg6, W1_main_arg2, W1_main_arg5, W1_main_arg6, W2_main_v5, W1_main_v5]
  rw [h]
  exact (Cert.Lib.ScatterGather.gather_rows_apply (N := 237) (M := 500000) (C := 128) (by norm_num)
      gather_S237x128_S500000x1_S500000x128_1_0_n_n_0_1_1128.wf _ (startWords 237#32 (col2 (aT m c))) e k).trans
    (relProj_apply _ _ _ _ k)

/-- The three weights: the three parts of the 384 × 128 weight. -/
theorem ws_eq : (V3 m ρ c main_v33 : FVec Ideal S128x128 .f32)
    = extractStridedSlice S128x128 ![0, 0] (aW2 m c) slices_S384x128_S128x128_0_0 := by
  refine (W3_main_v33 m ρ c).trans ?_
  rw [W2_main_arg7, W1_main_arg7]
theorem wd_eq : (V3 m ρ c main_v34 : FVec Ideal S128x128 .f32)
    = extractStridedSlice S128x128 ![128, 0] (aW2 m c) slices_S384x128_S128x128_128_0 := by
  refine (W3_main_v34 m ρ c).trans ?_
  rw [W2_main_arg7, W1_main_arg7]
theorem wr_eq : (V3 m ρ c main_v35 : FVec Ideal S128x128 .f32)
    = extractStridedSlice S128x128 ![256, 0] (aW2 m c) slices_S384x128_S128x128_256_0 := by
  refine (W3_main_v35 m ρ c).trans ?_
  rw [W2_main_arg7, W1_main_arg7]
/-- The bias row, the attention column and its bias. -/
theorem b2_eq : (V3 m ρ c main_v36 : FVec Ideal S1x128 .f32) = shapeCast S1x128 (aB2 m c) shapeCasts_S128_S1x128 := by
  refine (W3_main_v36 m ρ c).trans ?_
  rw [W2_main_arg8, W1_main_arg8]
theorem aw_eq : (V3 m ρ c main_arg9 : FVec Ideal S128x1 .f32) = aAw m c := by
  refine (W3_main_arg9 m ρ c).trans ?_
  rw [W2_main_arg9, W1_main_arg9]
theorem ab_eq : (V3 m ρ c main_v37 : FVec Ideal S1x1 .f32) = shapeCast S1x1 (aAb m c) shapeCasts_S1_S1x1 := by
  refine (W3_main_v37 m ρ c).trans ?_
  rw [W2_main_arg10, W1_main_arg10]

/-! ## The feature, the weight, the result -/

/-- THE FEATURE ARRAY the edge kernel's region leaves, at `(e, j)`. -/
theorem feats_apply (e : Fin 500000) (j : Fin 128) :
    Region1.feats (V3 m ρ) c (ix2 e j)
      = feat
          (fun k => lin (aX m c) (aWe m c) (aBe m c) (rowOf 100000 (by norm_num) (startWords 100000#32 (col0 (aT m c)) (ix2 e (0 : Fin 1)))) k)
          (fun k => lin (aX m c) (aWe m c) (aBe m c) (rowOf 100000 (by norm_num) (startWords 100000#32 (col1 (aT m c)) (ix2 e (0 : Fin 1)))) k)
          (fun k => lin (aXr m c) (aWr m c) (aBr m c) (rowOf 237 (by norm_num) (startWords 237#32 (col2 (aT m c)) (ix2 e (0 : Fin 1)))) k)
          (aW2 m c) (aB2 m c) j := by
  refine (featArr_apply _ _ _ _ _ _ _ e j).trans ?_
  unfold feat
  refine congrArg₂ (· + ·) (congrArg₂ (· + ·) (congrArg₂ (· + ·) ?_ ?_) ?_) ?_
  · exact Finset.sum_congr rfl fun k _ => congrArg₂ (· * ·) (src_apply m ρ c e k) ((congrFun (ws_eq m ρ c) (ix2 k j)).trans (slice0_apply _ k j))
  · exact Finset.sum_congr rfl fun k _ => congrArg₂ (· * ·) (dst_apply m ρ c e k) ((congrFun (wd_eq m ρ c) (ix2 k j)).trans (slice128_apply _ k j))
  · exact Finset.sum_congr rfl fun k _ => congrArg₂ (· * ·) (rel_apply m ρ c e k) ((congrFun (wr_eq m ρ c) (ix2 k j)).trans (slice256_apply _ k j))
  · exact (congrFun (b2_eq m ρ c) (ix2 (0 : Fin 1) j)).trans (row128_apply _ j)

/-- THE WEIGHT COLUMN the region leaves, read as a vector, at edge `e`: the activation of the score. -/
theorem weight_apply (e : Fin 500000) :
    shapeCast S500000 (Region1.weightCol (Region1.feats (V3 m ρ) c) (V3 m ρ c main_arg9) (V3 m ρ c main_v37)) shapeCasts_S500000x1_S500000 (ix1 e)
      = act (∑ j : Fin 128, Region1.feats (V3 m ρ) c (ix2 e j) * aAw m c (ix2 j (0 : Fin 1)) + aAb m c (ix1 (0 : Fin 1))) := by
  refine (shapeCast_apply _ shapeCasts_S500000x1_S500000 (ix1 e) (ix2 e (0 : Fin 1)) ?_).trans ?_
  · rw [Shape.rowMajor_val_one, Shape.rowMajor_val_two]
    show e.val * 1 + 0 = e.val
    omega
  · refine (weightCol_apply _ _ _ e).trans ?_
    refine congrArg act (congrArg₂ (· + ·) (Finset.sum_congr rfl fun j _ => congrArg₂ (· * ·) rfl ?_) ?_)
    · exact congrFun (aw_eq m ρ c) (ix2 j (0 : Fin 1))
    · exact (congrFun (ab_eq m ρ c) (ix2 (0 : Fin 1) (0 : Fin 1))).trans (one_apply _)

/-- THE RESULT of the idealized kernel program: the shared normalisation and aggregation of the source indices, the
    weight column read as a vector and the feature array. -/
theorem result :
    W5 m ρ c (Proc.devRef .tc main_v56)
      = aggregate (col0 (aT m c))
          (shapeCast S500000 (Region1.weightCol (Region1.feats (V3 m ρ) c) (V3 m ρ c main_arg9) (V3 m ρ c main_v37)) shapeCasts_S500000x1_S500000)
          (Region1.feats (V3 m ρ) c) := by
  rw [W5_result, W4_main_v1, W3_main_v1, W2_main_v1, W1_main_v1, W4_main_v38_0, W4_main_v38_1,
    Region1.final9 (V3 m ρ) c, Region1.final10 (V3 m ρ) c]

end Cert.KernelIdeal.KValue

end
-- ==== Proof.RefRead.lean ====
/-
  The reference program's stretches read back as functions of the buffers they start from.

  The first stretch computes the per-edge feature: each of the three index columns of the edge list is turned into start
  words, the rows they name are gathered from the entity (twice) and relation tables, each gathered array is projected
  (a product with a 128 × 128 weight plus a bias), the three projections are laid side by side and multiplied by the
  384 × 128 weight, plus a bias. The second computes the per-edge weight: the feature's product with the attention
  column plus its bias, through the leaky rectifier and the exponential. The last is the normalisation and aggregation
  both programs share.
-/
import proofs.«156960_j59090160058522_1_alg».proof.Proof.RefRun
import proofs.«156960_j59090160058522_1_alg».proof.Proof.Tail

set_option maxRecDepth 16384

noncomputable section

namespace Cert.ReferenceIdeal.HostRead

open Cert.ReferenceIdeal Cert.ReferenceIdeal.Gen Cert.ReferenceIdeal.HostRun
open Idealize.ShloMosaic Idealize.ShloMosaic.TcCoe Idealize.SL.Sem Idealize.ShloMosaic.StableHlo

variable {F : FTy → Type} [FloatOps F]

/-- Column 0 of the edge list, as a vector: the source indices. -/
def col0 (T : (⟨S500000x3, .i32⟩ : BufTy).Contents (Elt F)) : (⟨S500000, .i32⟩ : BufTy).Contents (Elt F) :=
  shapeCast S500000 (extractStridedSlice S500000x1 ![0, 0] T slices_S500000x3_S500000x1_0_0) shapeCasts_S500000x1_S500000
/-- Column 1: the destination indices. -/
def col1 (T : (⟨S500000x3, .i32⟩ : BufTy).Contents (Elt F)) : (⟨S500000, .i32⟩ : BufTy).Contents (Elt F) :=
  shapeCast S500000 (extractStridedSlice S500000x1 ![0, 1] T slices_S500000x3_S500000x1_0_1) shapeCasts_S500000x1_S500000
/-- Column 2: the relation indices. -/
def col2 (T : (⟨S500000x3, .i32⟩ : BufTy).Contents (Elt F)) : (⟨S500000, .i32⟩ : BufTy).Contents (Elt F) :=
  shapeCast S500000 (extractStridedSlice S500000x1 ![0, 2] T slices_S500000x3_S500000x1_0_2) shapeCasts_S500000x1_S500000

/-- Rows of the entity table gathered at the start words, then projected: `x[idx] · W + b`. -/
def entRows (X : (⟨S100000x128, .f32⟩ : BufTy).Contents (Elt F)) (W : (⟨S128x128, .f32⟩ : BufTy).Contents (Elt F))
    (b : (⟨S128, .f32⟩ : BufTy).Contents (Elt F)) (idx : (⟨S500000x1, .i32⟩ : BufTy).Contents (Elt F)) :
    (⟨S500000x128, .f32⟩ : BufTy).Contents (Elt F) :=
  addf (Host.dotGeneral dot_S500000x128_S128x128_S500000x128_1_0_0_1_n_n none
      (Host.gather gather_S100000x128_S500000x1_S500000x128_1_0_n_n_0_1_1128 X idx) W)
    (broadcastInDim S500000x128 ![0, 1] bcast_S1x128_S500000x128_0_1 (broadcastInDim S1x128 ![1] bcast_S128_S1x128_1 b))

/-- Rows of the relation table gathered at the start words, then projected. -/
def relRows (X : (⟨S237x128, .f32⟩ : BufTy).Contents (Elt F)) (W : (⟨S128x128, .f32⟩ : BufTy).Contents (Elt F))
    (b : (⟨S128, .f32⟩ : BufTy).Contents (Elt F)) (idx : (⟨S500000x1, .i32⟩ : BufTy).Contents (Elt F)) :
    (⟨S500000x128, .f32⟩ : BufTy).Contents (Elt F) :=
  addf (Host.dotGeneral dot_S500000x128_S128x128_S500000x128_1_0_0_1_n_n none
      (Host.gather gather_S237x128_S500000x1_S500000x128_1_0_n_n_0_1_1128 X idx) W)
    (broadcastInDim S500000x128 ![0, 1] bcast_S1x128_S500000x128_0_1 (broadcastInDim S1x128 ![1] bcast_S128_S1x128_1 b))

/-- The per-edge feature: the three projected arrays side by side, times the 384 × 128 weight, plus the bias. -/
def feature (s d r : (⟨S500000x128, .f32⟩ : BufTy).Contents (Elt F)) (W2 : (⟨S384x128, .f32⟩ : BufTy).Contents (Elt F))
    (b2 : (⟨S128, .f32⟩ : BufTy).Contents (Elt F)) : (⟨S500000x128, .f32⟩ : BufTy).Contents (Elt F) :=
  addf (Host.dotGeneral dot_S500000x384_S384x128_S500000x128_1_0_0_1_n_n none
      (concatenate S500000x384 1 [⟨S500000x128, s⟩, ⟨S500000x128, d⟩, ⟨S500000x128, r⟩]
        concatenates_S500000x128_S500000x128_S500000x128_S500000x384_d1) W2)
    (broadcastInDim S500000x128 ![0, 1] bcast_S1x128_S500000x128_0_1 (broadcastInDim S1x128 ![1] bcast_S128_S1x128_1 b2))

/-- The attention score of every edge, as a vector. -/
def score (cF : (⟨S500000x128, .f32⟩ : BufTy).Contents (Elt F)) (aw : (⟨S128x1, .f32⟩ : BufTy).Contents (Elt F))
    (ab : (⟨S1, .f32⟩ : BufTy).Contents (Elt F)) : (⟨S500000, .f32⟩ : BufTy).Contents (Elt F) :=
  shapeCast S500000
    (addf (Host.dotGeneral dot_S500000x128_S128x1_S500000x1_1_0_0_1_n_n none cF aw)
      (broadcastInDim S500000x1 ![0, 1] bcast_S1x1_S500000x1_0_1 (broadcastInDim S1x1 ![1] bcast_S1_S1x1_1 ab)))
    shapeCasts_S500000x1_S500000

/-- The per-edge weight: the exponential of the leaky rectifier (slope the printed word) of the score. -/
def weight (cF : (⟨S500000x128, .f32⟩ : BufTy).Contents (Elt F)) (aw : (⟨S128x1, .f32⟩ : BufTy).Contents (Elt F))
    (ab : (⟨S1, .f32⟩ : BufTy).Contents (Elt F)) : (⟨S500000, .f32⟩ : BufTy).Contents (Elt F) :=
  Host.exp (select (cmpf .oge (score cF aw ab) (broadcastInDim S500000 ![] bcast_S_S500000 (constant S_ .f32 0x00000000#32)))
    (score cF aw ab)
    (mulf (broadcastInDim S500000 ![] bcast_S_S500000 (id (constant S_ .f32 0x3C23D70A#32))) (score cF aw ab)))

/-! ## The first stretch -/

set_option maxHeartbeats 4000000 in
/-- The feature after the first stretch. -/
theorem opsA_feature (V : Valuation τ sig (Elt F)) :
    after opsA V (Proc.devRef .tc main_v43)
      = feature
          (entRows (V (Proc.devRef .tc main_arg1)) (V (Proc.devRef .tc main_arg3)) (V (Proc.devRef .tc main_arg4))
            (Cert.KernelIdeal.Tail.startWords 100000#32 (col0 (V (Proc.devRef .tc main_arg0)))))
          (entRows (V (Proc.devRef .tc main_arg1)) (V (Proc.devRef .tc main_arg3)) (V (Proc.devRef .tc main_arg4))
            (Cert.KernelIdeal.Tail.startWords 100000#32 (col1 (V (Proc.devRef .tc main_arg0)))))
          (relRows (V (Proc.devRef .tc main_arg2)) (V (Proc.devRef .tc main_arg5)) (V (Proc.devRef .tc main_arg6))
            (Cert.KernelIdeal.Tail.startWords 237#32 (col2 (V (Proc.devRef .tc main_arg0)))))
          (V (Proc.devRef .tc main_arg7)) (V (Proc.devRef .tc main_arg8)) := by
  simp only [opsA]
  after_results_simp
  try dsimp only [Matrix.cons_val]
  try after_results_simp
  rfl

set_option maxHeartbeats 4000000 in
/-- The source indices after the first stretch. -/
theorem opsA_src (V : Valuation τ sig (Elt F)) :
    after opsA V (Proc.devRef .tc main_v1) = col0 (V (Proc.devRef .tc main_arg0)) := by
  simp only [opsA]
  after_results_simp
  rfl

set_option maxHeartbeats 4000000 in
theorem opsA_arg9 (V : Valuation τ sig (Elt F)) : after opsA V (Proc.devRef .tc main_arg9) = V (Proc.devRef .tc main_arg9) := by
  simp only [opsA]
  after_results_simp

set_option maxHeartbeats 4000000 in
theorem opsA_arg10 (V : Valuation τ sig (Elt F)) : after opsA V (Proc.devRef .tc main_arg10) = V (Proc.devRef .tc main_arg10) := by
  simp only [opsA]
  after_results_simp

/-! ## The second stretch -/

set_option maxHeartbeats 4000000 in
/-- The weight after the second stretch. -/
theorem opsB_weight (W : Valuation τ sig (Elt F)) :
    after opsB W (Proc.devRef .tc main_v50)
      = weight (W (Proc.devRef .tc main_v43)) (W (Proc.devRef .tc main_arg9)) (W (Proc.devRef .tc main_arg10)) := by
  simp only [opsB]
  after_results_simp
  rfl

set_option maxHeartbeats 4000000 in
theorem opsB_feature (W : Valuation τ sig (Elt F)) : after opsB W (Proc.devRef .tc main_v43) = W (Proc.devRef .tc main_v43) := by
  simp only [opsB]
  after_results_simp

set_option maxHeartbeats 4000000 in
theorem opsB_src (W : Valuation τ sig (Elt F)) : after opsB W (Proc.devRef .tc main_v1) = W (Proc.devRef .tc main_v1) := by
  simp only [opsB]
  after_results_simp

/-! ## The last stretch -/

set_option maxHeartbeats 4000000 in
/-- The result after the last stretch: the shared normalisation and aggregation of what the first two left. -/
theorem opsC_result (W : Valuation τ sig (Elt F)) :
    after opsC1 (after opsC0 W) (Proc.devRef .tc main_v67)
      = Cert.KernelIdeal.Tail.aggregate (W (Proc.devRef .tc main_v1)) (W (Proc.devRef .tc main_v50)) (W (Proc.devRef .tc main_v43)) := by
  simp only [opsC1, opsC0]
  after_results_simp
  rfl

/-- The result of @main, from the launch contents. -/
theorem result (V : Valuation τ sig (Elt F)) :
    after ops V (Proc.devRef .tc main_v67)
      = Cert.KernelIdeal.Tail.aggregate (col0 (V (Proc.devRef .tc main_arg0)))
          (weight (after opsA V (Proc.devRef .tc main_v43)) (V (Proc.devRef .tc main_arg9)) (V (Proc.devRef .tc main_arg10)))
          (after opsA V (Proc.devRef .tc main_v43)) := by
  rw [after_ops, opsC_result, opsB_src, opsB_weight, opsB_feature, opsA_src, opsA_arg9, opsA_arg10]

end Cert.ReferenceIdeal.HostRead

end
-- ==== Proof.RValue.lean ====
/-
  The reference's per-edge feature and weight, entry by entry.

  A gathered-then-projected array at `(e, k)` is entry `k` of the projection of the table row that edge `e`'s start
  word names. The feature at `(e, j)` is the contraction of the three projected rows of edge `e`, laid side by side,
  against the 384 × 128 weight, plus the bias: position `k` of the 384 reads the first array for `k < 128`, the second
  for `128 ≤ k < 256`, the third beyond, so the sum splits into the three sums of `EdgeSpec.feat`. The weight of edge
  `e` is the activation of its score, the feature row's product with the attention column plus its bias.
-/
import proofs.«156960_j59090160058522_1_alg».proof.Proof.RefRead
import proofs.«156960_j59090160058522_1_alg».proof.Proof.LibScatterGather
import proofs.«156960_j59090160058522_1_alg».proof.Proof.LibDotSum
import proofs.«156960_j59090160058522_1_alg».proof.Proof.EdgeSpec
import Idealize.ShloMosaic.PureOps.Ideal.Laws
import Idealize.ShloMosaic.Lib.ValueIdx
import Idealize.ShloMosaic.Lib.Pipeline.Value

set_option maxRecDepth 16384

noncomputable section

namespace Cert.ReferenceIdeal.RValue

open Cert.ReferenceIdeal Cert.ReferenceIdeal.Gen Cert.ReferenceIdeal.HostRead Cert.EdgeSpec
open Idealize.ShloMosaic Idealize.ShloMosaic.ValueIdx

/-- Rows of the entity table gathered and projected, at `(e, k)`. -/
theorem entRows_apply (X : FVec Ideal S100000x128 .f32) (W : FVec Ideal S128x128 .f32) (b : FVec Ideal S128 .f32)
    (idx : IVec S500000x1 32) (e : Fin 500000) (k : Fin 128) :
    entRows (F := Ideal) X W b idx (ix2 e k) = lin X W b (rowOf 100000 (by norm_num) (idx (ix2 e (0 : Fin 1)))) k := by
  unfold entRows lin
  show Host.dotGeneral dot_S500000x128_S128x128_S500000x128_1_0_0_1_n_n none
        (Host.gather gather_S100000x128_S500000x1_S500000x128_1_0_n_n_0_1_1128 X idx) W (ix2 e k)
      + broadcastInDim S500000x128 ![0, 1] bcast_S1x128_S500000x128_0_1 (broadcastInDim S1x128 ![1] bcast_S128_S1x128_1 b) (ix2 e k) = _
  rw [Cert.LibDotSum.bias_apply b bcast_S128_S1x128_1 bcast_S1x128_S500000x128_0_1 e k]
  refine congrArg (· + b (ix1 k)) ?_
  refine (Ideal.dotGeneral_apply _ none .single _ W (ix2 e k)).trans ?_
  refine (Cert.LibDotSum.sum_dot dot_S500000x128_S128x128_S500000x128_1_0_0_1_n_n rfl rfl (fun _ _ => rfl) (fun _ _ => rfl)
    (fun _ _ => rfl) (fun _ _ => rfl) _ W e k).trans ?_
  refine Finset.sum_congr rfl fun i _ => congrArg (· * W (ix2 i k)) ?_
  exact Cert.Lib.ScatterGather.gather_rows_apply (N := 100000) (M := 500000) (C := 128) (by norm_num)
    gather_S100000x128_S500000x1_S500000x128_1_0_n_n_0_1_1128.wf X idx e i

/-- Rows of the relation table gathered and projected, at `(e, k)`. -/
theorem relRows_apply (X : FVec Ideal S237x128 .f32) (W : FVec Ideal S128x128 .f32) (b : FVec Ideal S128 .f32)
    (idx : IVec S500000x1 32) (e : Fin 500000) (k : Fin 128) :
    relRows (F := Ideal) X W b idx (ix2 e k) = lin X W b (rowOf 237 (by norm_num) (idx (ix2 e (0 : Fin 1)))) k := by
  unfold relRows lin
  show Host.dotGeneral dot_S500000x128_S128x128_S500000x128_1_0_0_1_n_n none
        (Host.gather gather_S237x128_S500000x1_S500000x128_1_0_n_n_0_1_1128 X idx) W (ix2 e k)
      + broadcastInDim S500000x128 ![0, 1] bcast_S1x128_S500000x128_0_1 (broadcastInDim S1x128 ![1] bcast_S128_S1x128_1 b) (ix2 e k) = _
  rw [Cert.LibDotSum.bias_apply b bcast_S128_S1x128_1 bcast_S1x128_S500000x128_0_1 e k]
  refine congrArg (· + b (ix1 k)) ?_
  refine (Ideal.dotGeneral_apply _ none .single _ W (ix2 e k)).trans ?_
  refine (Cert.LibDotSum.sum_dot dot_S500000x128_S128x128_S500000x128_1_0_0_1_n_n rfl rfl (fun _ _ => rfl) (fun _ _ => rfl)
    (fun _ _ => rfl) (fun _ _ => rfl) _ W e k).trans ?_
  refine Finset.sum_congr rfl fun i _ => congrArg (· * W (ix2 i k)) ?_
  exact Cert.Lib.ScatterGather.gather_rows_apply (N := 237) (M := 500000) (C := 128) (by norm_num)
    gather_S237x128_S500000x1_S500000x128_1_0_n_n_0_1_1128.wf X idx e i

/-- The three arrays side by side, at a position of each third. -/
theorem cat_apply (s d r : FVec Ideal S500000x128 .f32) (e : Fin 500000) (k : Fin 128) :
    concatenate S500000x384 1 [⟨S500000x128, s⟩, ⟨S500000x128, d⟩, ⟨S500000x128, r⟩]
        concatenates_S500000x128_S500000x128_S500000x128_S500000x384_d1 (ix2 e (⟨k.val, by have := k.isLt; omega⟩ : Fin 384)) = s (ix2 e k)
    ∧ concatenate S500000x384 1 [⟨S500000x128, s⟩, ⟨S500000x128, d⟩, ⟨S500000x128, r⟩]
        concatenates_S500000x128_S500000x128_S500000x128_S500000x384_d1 (ix2 e (⟨128 + k.val, by have := k.isLt; omega⟩ : Fin 384)) = d (ix2 e k)
    ∧ concatenate S500000x384 1 [⟨S500000x128, s⟩, ⟨S500000x128, d⟩, ⟨S500000x128, r⟩]
        concatenates_S500000x128_S500000x128_S500000x128_S500000x384_d1 (ix2 e (⟨256 + k.val, by have := k.isLt; omega⟩ : Fin 384)) = r (ix2 e k) := by
  refine ⟨?_, ?_, ?_⟩
  · refine concatenate_apply_piece (t := S500000x384) (1 : Fin 2) [⟨S500000x128, s⟩, ⟨S500000x128, d⟩, ⟨S500000x128, r⟩] concatenates_S500000x128_S500000x128_S500000x128_S500000x384_d1 _ 0 (by show (0 : Nat) < 3; omega) S500000x128 s rfl rfl 0 rfl (ix2 e k) (fun b hb => ?_) ?_
    · match b with
      | ⟨0, _⟩ => rfl
      | ⟨1, _⟩ => exact absurd rfl hb
    · show 0 + k.val = k.val
      omega
  · refine concatenate_apply_piece (t := S500000x384) (1 : Fin 2) [⟨S500000x128, s⟩, ⟨S500000x128, d⟩, ⟨S500000x128, r⟩] concatenates_S500000x128_S500000x128_S500000x128_S500000x384_d1 _ 1 (by show (1 : Nat) < 3; omega) S500000x128 d rfl rfl 128 rfl (ix2 e k) (fun b hb => ?_) ?_
    · match b with
      | ⟨0, _⟩ => rfl
      | ⟨1, _⟩ => exact absurd rfl hb
    · rfl
  · refine concatenate_apply_piece (t := S500000x384) (1 : Fin 2) [⟨S500000x128, s⟩, ⟨S500000x128, d⟩, ⟨S500000x128, r⟩] concatenates_S500000x128_S500000x128_S500000x128_S500000x384_d1 _ 2 (by show (2 : Nat) < 3; omega) S500000x128 r rfl rfl 256 rfl (ix2 e k) (fun b hb => ?_) ?_
    · match b with
      | ⟨0, _⟩ => rfl
      | ⟨1, _⟩ => exact absurd rfl hb
    · rfl

/-- The feature at `(e, j)`, from row `e` of the three projected arrays. -/
theorem feature_apply (s d r : FVec Ideal S500000x128 .f32) (W2 : FVec Ideal S384x128 .f32) (b2 : FVec Ideal S128 .f32)
    (e : Fin 500000) (j : Fin 128) :
    feature (F := Ideal) s d r W2 b2 (ix2 e j) = feat (fun k => s (ix2 e k)) (fun k => d (ix2 e k)) (fun k => r (ix2 e k)) W2 b2 j := by
  unfold feature feat
  show Host.dotGeneral dot_S500000x384_S384x128_S500000x128_1_0_0_1_n_n none
        (concatenate S500000x384 1 [⟨S500000x128, s⟩, ⟨S500000x128, d⟩, ⟨S500000x128, r⟩]
          concatenates_S500000x128_S500000x128_S500000x128_S500000x384_d1) W2 (ix2 e j)
      + broadcastInDim S500000x128 ![0, 1] bcast_S1x128_S500000x128_0_1 (broadcastInDim S1x128 ![1] bcast_S128_S1x128_1 b2) (ix2 e j) = _
  rw [Cert.LibDotSum.bias_apply b2 bcast_S128_S1x128_1 bcast_S1x128_S500000x128_0_1 e j]
  refine congrArg (· + b2 (ix1 j)) ?_
  refine (Ideal.dotGeneral_apply _ none .single _ W2 (ix2 e j)).trans ?_
  refine (Cert.LibDotSum.sum_dot dot_S500000x384_S384x128_S500000x128_1_0_0_1_n_n rfl rfl (fun _ _ => rfl) (fun _ _ => rfl)
    (fun _ _ => rfl) (fun _ _ => rfl) _ W2 e j).trans ?_
  rw [sum384]
  refine congrArg₂ (· + ·) (congrArg₂ (· + ·) ?_ ?_) ?_
  · exact Finset.sum_congr rfl fun k _ => congrArg (· * _) (cat_apply s d r e k).1
  · exact Finset.sum_congr rfl fun k _ => congrArg (· * _) (cat_apply s d r e k).2.1
  · exact Finset.sum_congr rfl fun k _ => congrArg (· * _) (cat_apply s d r e k).2.2

/-- The score of edge `e`. -/
theorem score_apply (cF : FVec Ideal S500000x128 .f32) (aw : FVec Ideal S128x1 .f32) (ab : FVec Ideal S1 .f32) (e : Fin 500000) :
    score (F := Ideal) cF aw ab (ix1 e) = ∑ j : Fin 128, cF (ix2 e j) * aw (ix2 j (0 : Fin 1)) + ab (ix1 (0 : Fin 1)) := by
  unfold score
  refine (shapeCast_apply _ shapeCasts_S500000x1_S500000 (ix1 e) (ix2 e (0 : Fin 1)) ?_).trans ?_
  · rw [Shape.rowMajor_val_one, Shape.rowMajor_val_two]
    show e.val * 1 + 0 = e.val
    omega
  · show Host.dotGeneral dot_S500000x128_S128x1_S500000x1_1_0_0_1_n_n none cF aw (ix2 e (0 : Fin 1))
        + broadcastInDim S500000x1 ![0, 1] bcast_S1x1_S500000x1_0_1 (broadcastInDim S1x1 ![1] bcast_S1_S1x1_1 ab) (ix2 e (0 : Fin 1)) = _
    rw [Cert.LibDotSum.bias_apply ab bcast_S1_S1x1_1 bcast_S1x1_S500000x1_0_1 e (0 : Fin 1)]
    refine congrArg (· + ab (ix1 (0 : Fin 1))) ?_
    exact (Ideal.dotGeneral_apply _ none .single cF aw (ix2 e (0 : Fin 1))).trans
      (Cert.LibDotSum.sum_dot dot_S500000x128_S128x1_S500000x1_1_0_0_1_n_n rfl rfl (fun _ _ => rfl) (fun _ _ => rfl)
        (fun _ _ => rfl) (fun _ _ => rfl) cF aw e (0 : Fin 1))

/-- The weight of edge `e`: the activation of its score. -/
theorem weight_apply (cF : FVec Ideal S500000x128 .f32) (aw : FVec Ideal S128x1 .f32) (ab : FVec Ideal S1 .f32) (e : Fin 500000) :
    weight (F := Ideal) cF aw ab (ix1 e) = act (∑ j : Fin 128, cF (ix2 e j) * aw (ix2 j (0 : Fin 1)) + ab (ix1 (0 : Fin 1))) := by
  rw [← score_apply]
  rfl

end Cert.ReferenceIdeal.RValue

end
-- ==== Proof.Bridge.lean ====
/-
  The two idealized programs compute the same result.

  Both end with the shared normalisation and aggregation of the source indices, the per-edge weights and the per-edge
  features, so it is enough that they feed it equal arguments. The source indices are the same column of the same edge
  list. The features agree entry by entry: on either side entry `(e, j)` is `EdgeSpec.feat` of the projections of the
  three table rows that edge `e`'s start words name — the kernel program projects the tables first and gathers rows of
  the result, the reference gathers rows first and projects them, and a row of `x · W + b` depends on that row of `x`
  only; the kernel's three products with the three parts of the 384 × 128 weight are the reference's one product with
  the whole of it, the sum over 384 positions split in three. The weights agree because each is the activation of the
  same score of the (equal) feature row. No finiteness of the inputs is used.
-/
import proofs.«156960_j59090160058522_1_alg».proof.Proof.KValue
import proofs.«156960_j59090160058522_1_alg».proof.Proof.RValue

set_option maxRecDepth 16384

noncomputable section

namespace Cert.Bridge

open Idealize.ShloMosaic Idealize.ShloMosaic.TcCoe Idealize.ShloMosaic.ValueIdx Idealize.SL.Sem Idealize.ShloMosaic.StableHlo
open Cert.EdgeSpec

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The reference's feature array is the kernel program's, entry by entry. -/
theorem feature_eq :
    Cert.ReferenceIdeal.HostRead.feature (F := Ideal)
        (Cert.ReferenceIdeal.HostRead.entRows (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (Cert.KernelIdeal.Tail.startWords 100000#32 (Cert.ReferenceIdeal.HostRead.col0 (m ((c.tc : Thread Cert.KernelIdeal.nD Cert.KernelIdeal.τ).loc Cert.KernelIdeal.main_arg0)))))
        (Cert.ReferenceIdeal.HostRead.entRows (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (Cert.KernelIdeal.Tail.startWords 100000#32 (Cert.ReferenceIdeal.HostRead.col1 (m ((c.tc : Thread Cert.KernelIdeal.nD Cert.KernelIdeal.τ).loc Cert.KernelIdeal.main_arg0)))))
        (Cert.ReferenceIdeal.HostRead.relRows (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
          (Cert.KernelIdeal.Tail.startWords 237#32 (Cert.ReferenceIdeal.HostRead.col2 (m ((c.tc : Thread Cert.KernelIdeal.nD Cert.KernelIdeal.τ).loc Cert.KernelIdeal.main_arg0)))))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = Cert.KernelIdeal.Region1.feats (Cert.KernelIdeal.Gen.V3 m ρ) c := by
  funext i
  obtain ⟨e, j, rfl⟩ : ∃ (e : Fin 500000) (j : Fin 128), i = ix2 e j := ⟨i 0, i 1, eq_ix2 i⟩
  rw [Cert.ReferenceIdeal.RValue.feature_apply, Cert.KernelIdeal.KValue.feats_apply]
  simp only [Cert.ReferenceIdeal.RValue.entRows_apply, Cert.ReferenceIdeal.RValue.relRows_apply]
  rfl

/-- THE RESULT BUFFERS AGREE: from memories agreeing on the eleven arguments, the reference's result after all of its
    operations is the kernel program's result buffer at the last boundary. -/
theorem result_eq (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    after Cert.ReferenceIdeal.HostRun.ops (launchContents m' c) (Proc.devRef .tc Cert.ReferenceIdeal.main_v67)
      = Cert.KernelIdeal.Gen.W5 m ρ c (Proc.devRef .tc Cert.KernelIdeal.main_v56) := by
  rw [Cert.ReferenceIdeal.HostRead.result, Cert.ReferenceIdeal.HostRead.opsA_feature, Cert.KernelIdeal.KValue.result]
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  have e8 : launchContents m' c (Proc.devRef .tc Cert.ReferenceIdeal.main_arg8) = m ((c.tc : Thread Cert.KernelIdeal.nD Cert.KernelIdeal.τ).loc Cert.KernelIdeal.main_arg8) := h8
  have e9 : launchContents m' c (Proc.devRef .tc Cert.ReferenceIdeal.main_arg9) = m ((c.tc : Thread Cert.KernelIdeal.nD Cert.KernelIdeal.τ).loc Cert.KernelIdeal.main_arg9) := h9
  have e10 : launchContents m' c (Proc.devRef .tc Cert.ReferenceIdeal.main_arg10) = m ((c.tc : Thread Cert.KernelIdeal.nD Cert.KernelIdeal.τ).loc Cert.KernelIdeal.main_arg10) := h10
  rw [e0, e1, e2, e3, e4, e5, e6, e7, e8, e9, e10, feature_eq m ρ c]
  have hw : Cert.ReferenceIdeal.HostRead.weight (F := Ideal) (Cert.KernelIdeal.Region1.feats (Cert.KernelIdeal.Gen.V3 m ρ) c) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      = shapeCast Cert.KernelIdeal.S500000 (Cert.KernelIdeal.Region1.weightCol (Cert.KernelIdeal.Region1.feats (Cert.KernelIdeal.Gen.V3 m ρ) c)
          (Cert.KernelIdeal.Gen.V3 m ρ c Cert.KernelIdeal.main_arg9) (Cert.KernelIdeal.Gen.V3 m ρ c Cert.KernelIdeal.main_v37)) Cert.KernelIdeal.Gen.shapeCasts_S500000x1_S500000 := by
    funext i
    obtain ⟨e, rfl⟩ : ∃ e : Fin 500000, i = ix1 e := ⟨i 0, eq_ix1 i⟩
    rw [Cert.ReferenceIdeal.RValue.weight_apply, Cert.KernelIdeal.KValue.weight_apply]
  rw [hw]
  rfl

end Cert.Bridge

end
-- ==== Proof.lean ====
/-
  The certificate of an edge-attention layer: a Pallas implementation against its jnp reference, equal at the extended
  reals (`Cert.Claim`).

  Each edge `(source, destination, relation)` gets a feature — the three looked-up rows, each projected, laid side by
  side and multiplied by a 384 × 128 weight, plus a bias — and a weight, the exponential of the leaky rectifier of the
  feature's score; per source node the weights are normalised and the features, scaled by them, are summed. The reference
  looks rows up first and projects them; the kernel program projects the whole entity table in one pipelined kernel and
  the relation table on the host, looks the projected rows up, and forms the feature in a second pipelined kernel as
  three products with the three 128-row parts of the weight; both finish with the same normalisation and aggregation.

  The three frames are the generated frame certificates (the reference's: its run with every buffer named, its
  arguments never written). The idealization rewrote nothing, so `preserves` is trivial. For `algebraic` the kernel
  program's run is re-posted with its result buffer at the last boundary's contents, and the reference's run ends at
  those same contents (`Bridge.result_eq`): the two programs feed the shared last stretch equal source indices, equal
  features (a projected row depends on its own table row only; a sum over 384 positions is three sums over 128) and
  equal weights. The inputs' finiteness is not used.
-/
import proofs.«156960_j59090160058522_1_alg».proof.Defs
import proofs.«156960_j59090160058522_1_alg».proof.Proof.Gen.Kernel
import proofs.«156960_j59090160058522_1_alg».proof.Proof.Gen.Kernel.Frame
import proofs.«156960_j59090160058522_1_alg».proof.Proof.Gen.KernelIdeal
import proofs.«156960_j59090160058522_1_alg».proof.Proof.Gen.KernelIdeal.Frame
import proofs.«156960_j59090160058522_1_alg».proof.Proof.Gen.ReferenceIdeal
import proofs.«156960_j59090160058522_1_alg».proof.Proof.Gen.Pre_finite_inputs
import proofs.«156960_j59090160058522_1_alg».proof.Proof.KRun
import proofs.«156960_j59090160058522_1_alg».proof.Proof.RefKeep
import proofs.«156960_j59090160058522_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.HostKeep.frame (F := Ideal) m ρ

theorem preserves : Cert.preserves_Kernel_KernelIdeal := trivial

/-- Both idealized programs run, and the reference's result is the kernel program's. -/
theorem algebraic : Cert.algebraic_KernelIdeal_ReferenceIdeal := by
  intro m ρ m' ρ' _ hagree
  refine ⟨fun c => Cert.KernelIdeal.Gen.W5 m ρ c (Proc.devRef .tc Cert.KernelIdeal.main_v56), ?_, ?_⟩
  · exact (θ_run Cert.KernelIdeal.defs _ _).mono (fun r h c =>
      ⟨h c _ (Cert.KernelIdeal.Gen.mem_uc Cert.KernelIdeal.main_v56 (by decide)),
       (h c _ (Cert.KernelIdeal.Gen.mem_uc Cert.KernelIdeal.main_arg0 (by decide))).trans (Cert.KernelIdeal.Gen.W5_main_arg0 m ρ c),
       (h c _ (Cert.KernelIdeal.Gen.mem_uc Cert.KernelIdeal.main_arg1 (by decide))).trans (Cert.KernelIdeal.Gen.W5_main_arg1 m ρ c),
       (h c _ (Cert.KernelIdeal.Gen.mem_uc Cert.KernelIdeal.main_arg2 (by decide))).trans (Cert.KernelIdeal.Gen.W5_main_arg2 m ρ c),
       (h c _ (Cert.KernelIdeal.Gen.mem_uc Cert.KernelIdeal.main_arg3 (by decide))).trans (Cert.KernelIdeal.Gen.W5_main_arg3 m ρ c),
       (h c _ (Cert.KernelIdeal.Gen.mem_uc Cert.KernelIdeal.main_arg4 (by decide))).trans (Cert.KernelIdeal.Gen.W5_main_arg4 m ρ c),
       (h c _ (Cert.KernelIdeal.Gen.mem_uc Cert.KernelIdeal.main_arg5 (by decide))).trans (Cert.KernelIdeal.Gen.W5_main_arg5 m ρ c),
       (h c _ (Cert.KernelIdeal.Gen.mem_uc Cert.KernelIdeal.main_arg6 (by decide))).trans (Cert.KernelIdeal.Gen.W5_main_arg6 m ρ c),
       (h c _ (Cert.KernelIdeal.Gen.mem_uc Cert.KernelIdeal.main_arg7 (by decide))).trans (Cert.KernelIdeal.Gen.W5_main_arg7 m ρ c),
       (h c _ (Cert.KernelIdeal.Gen.mem_uc Cert.KernelIdeal.main_arg8 (by decide))).trans (Cert.KernelIdeal.Gen.W5_main_arg8 m ρ c),
       (h c _ (Cert.KernelIdeal.Gen.mem_uc Cert.KernelIdeal.main_arg9 (by decide))).trans (Cert.KernelIdeal.Gen.W5_main_arg9 m ρ c),
       (h c _ (Cert.KernelIdeal.Gen.mem_uc Cert.KernelIdeal.main_arg10 (by decide))).trans (Cert.KernelIdeal.Gen.W5_main_arg10 m ρ c)⟩)
      (Cert.KernelIdeal.KRun.run_W5 (F := Ideal) m ρ)
  · refine (θ_run Cert.ReferenceIdeal.defs _ _).mono (fun r h c => ?_) (Cert.ReferenceIdeal.HostRun.run_main (F := Ideal) m' ρ')
    obtain ⟨h0, h1, h2, h3, h4, h5, h6, h7, h8, h9, h10⟩ := hagree c
    exact ⟨(h c Cert.ReferenceIdeal.main_v67).trans (Cert.Bridge.result_eq m ρ m' c h0 h1 h2 h3 h4 h5 h6 h7 h8 h9 h10),
      (h c Cert.ReferenceIdeal.main_arg0).trans (Cert.ReferenceIdeal.HostKeep.keep_arg0 _),
      (h c Cert.ReferenceIdeal.main_arg1).trans (Cert.ReferenceIdeal.HostKeep.keep_arg1 _),
      (h c Cert.ReferenceIdeal.main_arg2).trans (Cert.ReferenceIdeal.HostKeep.keep_arg2 _),
      (h c Cert.ReferenceIdeal.main_arg3).trans (Cert.ReferenceIdeal.HostKeep.keep_arg3 _),
      (h c Cert.ReferenceIdeal.main_arg4).trans (Cert.ReferenceIdeal.HostKeep.keep_arg4 _),
      (h c Cert.ReferenceIdeal.main_arg5).trans (Cert.ReferenceIdeal.HostKeep.keep_arg5 _),
      (h c Cert.ReferenceIdeal.main_arg6).trans (Cert.ReferenceIdeal.HostKeep.keep_arg6 _),
      (h c Cert.ReferenceIdeal.main_arg7).trans (Cert.ReferenceIdeal.HostKeep.keep_arg7 _),
      (h c Cert.ReferenceIdeal.main_arg8).trans (Cert.ReferenceIdeal.HostKeep.keep_arg8 _),
      (h c Cert.ReferenceIdeal.main_arg9).trans (Cert.ReferenceIdeal.HostKeep.keep_arg9 _),
      (h c Cert.ReferenceIdeal.main_arg10).trans (Cert.ReferenceIdeal.HostKeep.keep_arg10 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
